-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S1x4096x4096 : Shape := ⟨3, ![1, 4096, 4096]⟩
abbrev S128x64 : Shape := ⟨2, ![128, 64]⟩
abbrev S64x1 : Shape := ⟨2, ![64, 1]⟩
abbrev S1 : Shape := ⟨1, ![1]⟩
abbrev S64 : Shape := ⟨1, ![64]⟩
abbrev S_ : Shape := ⟨0, ![]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S1 .f32) (main_arg5 : FVec F S64x1 .f32) (main_arg6 : FVec F S1 .f32) (main_arg7 : FVec F S64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S1x4096x128 .f32) (main_arg1 : FVec F S1x4096x4096 .f32) (main_arg2 : FVec F S128x64 .f32) (main_arg3 : FVec F S64x1 .f32) (main_arg4 : FVec F S1 .f32) (main_arg5 : FVec F S64x1 .f32) (main_arg6 : FVec F S1 .f32) (main_arg7 : FVec F S64 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_v13 main_v16
-- ==== Kernel.lean ====
abbrev S1x4096x128 : Shape := ⟨3, ![1, 4096, 128]⟩
abbrev S1x4096x4096 : Shape := ⟨3, ![1, 4096, 4096]⟩
abbrev S128x64 : Shape := ⟨2, ![128, 64]⟩
abbrev S64x1 : Shape := ⟨2, ![64, 1]⟩
abbrev S1 : Shape := ⟨1, ![1]⟩
abbrev S64 : Shape := ⟨1, ![64]⟩
abbrev S4096x128 : Shape := ⟨2, ![4096, 128]⟩
abbrev S4096x4096 : Shape := ⟨2, ![4096, 4096]⟩
abbrev S1x64 : Shape := ⟨2, ![1, 64]⟩
abbrev S1x1 : Shape := ⟨2, ![1, 1]⟩
abbrev S4096x64 : Shape := ⟨2, ![4096, 64]⟩
abbrev S1024x4096 : Shape := ⟨2, ![1024, 4096]⟩
abbrev S1024x64 : Shape := ⟨2, ![1024, 64]⟩
abbrev S4096x1 : Shape := ⟨2, ![4096, 1]⟩
abbrev S1x4096 : Shape := ⟨2, ![1, 4096]⟩
abbrev S1024x1 : Shape := ⟨2, ![1024, 1]⟩
abbrev S1024x128 : Shape := ⟨2, ![1024, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S128x64, .f32⟩
  | .hbm, ⟨3, _⟩ => ⟨S64x1, .f32⟩
  | .hbm, ⟨4, _⟩ => ⟨S1, .f32⟩
  | .hbm, ⟨5, _⟩ => ⟨S64x1, .f32⟩
  | .hbm, ⟨6, _⟩ => ⟨S1, .f32⟩
  | .hbm, ⟨7, _⟩ => ⟨S64, .f32⟩
  | .hbm, ⟨8, _⟩ => ⟨S4096x128, .f32⟩
  | .hbm, ⟨9, _⟩ => ⟨S4096x4096, .f32⟩
  | .hbm, ⟨10, _⟩ => ⟨S1x64, .f32⟩
  | .hbm, ⟨11, _⟩ => ⟨S1x1, .f32⟩
  | .hbm, ⟨12, _⟩ => ⟨S1x1, .f32⟩
  | .hbm, ⟨13, _⟩ => ⟨S1x64, .f32⟩
  | .hbm, ⟨14, _⟩ => ⟨S4096x64, .f32⟩
  | .local _ .vmem, ⟨0, _⟩ => ⟨S4096x128, .f32⟩
  | .local _ .vmem, ⟨1, _⟩ => ⟨S1024x4096, .f32⟩
  | .local _ .vmem, ⟨2, _⟩ => ⟨S1024x4096, .f32⟩
  | .local _ .vmem, ⟨3, _⟩ => ⟨S128x64, .f32⟩
  | .local _ .vmem, ⟨4, _⟩ => ⟨S64x1, .f32⟩
  | .local _ .vmem, ⟨5, _⟩ => ⟨S1x1, .f32⟩
  | .local _ .vmem, ⟨6, _⟩ => ⟨S1x64, .f32⟩
  | .local _ .vmem, ⟨7, _⟩ => ⟨S1x1, .f32⟩
  | .local _ .vmem, ⟨8, _⟩ => ⟨S1x64, .f32⟩
  | .local _ .vmem, ⟨9, _⟩ => ⟨S1024x64, .f32⟩
  | .local _ .vmem, ⟨10, _⟩ => ⟨S1024x64, .f32⟩
  | .local _ .vmem, ⟨11, _⟩ => ⟨S4096x128, .bf16⟩
  | .local _ .vmem, ⟨12, _⟩ => ⟨S4096x1, .f32⟩
  | .local _ .vmem, ⟨13, _⟩ => ⟨S1x4096, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1x4096x128_S4096x128 : S1x4096x128.ShapeCasts S4096x128
  shapeCasts_S1x4096x4096_S4096x4096 : S1x4096x4096.ShapeCasts S4096x4096
  shapeCasts_S64x1_S1x64 : S64x1.ShapeCasts S1x64
  shapeCasts_S1_S1x1 : S1.ShapeCasts S1x1
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S4096x128_S4096x64_0_0 : ∀ a, (![0, 0] : Fin 2 → Nat) a + S4096x64.size a ≤ S4096x128.size a
  h_S4096x64 : 0 < S4096x64.numel
  shapeCasts_S4096x64_S4096x64 : S4096x64.ShapeCasts S4096x64
  packedbf16_S4096x128_S4096x64_0_0 : (Rect.unit (s := S4096x128) ![0, 0] S4096x64.size inb_S4096x128_S4096x64_0_0).PackedRows (EltTy.packing .bf16)
  iota_S4096x64_d1_w32 : S4096x64.Iotas .tc 32 [1]
  inb_S4096x128_S4096x64_0_64 : ∀ a, (![0, 64] : Fin 2 → Nat) a + S4096x64.size a ≤ S4096x128.size a
  packedbf16_S4096x128_S4096x64_0_64 : (Rect.unit (s := S4096x128) ![0, 64] S4096x64.size inb_S4096x128_S4096x64_0_64).PackedRows (EltTy.packing .bf16)
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S1024x1 : 0 < S1024x1.numel
  broadcasts_S1024x1_S1024x4096 : S1024x1.Broadcasts S1024x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  slices_S1024x128_o0_64_S1024x1 : S1024x128.Slices ![0, 64] S1024x1
  slices_S1024x128_o0_0_S1024x64 : S1024x128.Slices ![0, 0] S1024x64
  broadcasts_S1024x1_S1024x64 : S1024x1.Broadcasts S1024x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S1x64_S4096x64_S1x4096_1_1_0_0_n_n_wf : DotDims.WF S1x64 S4096x64 S1x4096 [1] [1] [0] [0] [] []
  dot_S1024x4096_S4096x128_S1024x128_1_0_0_1_n_n_wf : DotDims.WF S1024x4096 S4096x128 S1024x128 [1] [0] [0] [1] [] []
  hrank0 : 0 < grid0.rank
  k0_off1_inb : ∀ i : grid0.Coords, ∀ a, (k0_off1 i) a + S1024x1.size a ≤ S4096x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S4096x64.size a
  hwx0_8 : ∀ i : grid0.Coords, EltTy.bits .f32 = 32 ∨ (Rect.block (s := S4096x64) S1024x64.size (cc0_transform_8 i) (hinb0_8 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S1x64_S4096x64_S1x4096_1_1_0_0_n_n : DotDims S1x64 S4096x64 S1x4096 where
  lhsContracting := [1]
  rhsContracting := [1]
  lhsNonContracting := [0]
  rhsNonContracting := [0]
  lhsBatch := []
  rhsBatch := []
  wf := dot_S1x64_S4096x64_S1x4096_1_1_0_0_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_call0_v0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x4096x128 : Shape := ⟨3, ![1, 4096, 128]⟩
abbrev S1x4096x4096 : Shape := ⟨3, ![1, 4096, 4096]⟩
abbrev S128x64 : Shape := ⟨2, ![128, 64]⟩
abbrev S64x1 : Shape := ⟨2, ![64, 1]⟩
abbrev S1 : Shape := ⟨1, ![1]⟩
abbrev S64 : Shape := ⟨1, ![64]⟩
abbrev S1x4096x64 : Shape := ⟨3, ![1, 4096, 64]⟩
abbrev S1x4096x1 : Shape := ⟨3, ![1, 4096, 1]⟩
abbrev S1x1x1 : Shape := ⟨3, ![1, 1, 1]⟩
abbrev S1x1x4096 : Shape := ⟨3, ![1, 1, 4096]⟩
abbrev S_ : Shape := ⟨0, ![]⟩
abbrev S1x4096 : Shape := ⟨2, ![1, 4096]⟩
abbrev S1x1x64 : Shape := ⟨3, ![1, 1, 64]⟩
abbrev S4096x64 : Shape := ⟨2, ![4096, 64]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S128x64, .f32⟩
  | .hbm, ⟨3, _⟩ => ⟨S64x1, .f32⟩
  | .hbm, ⟨4, _⟩ => ⟨S1, .f32⟩
  | .hbm, ⟨5, _⟩ => ⟨S64x1, .f32⟩
  | .hbm, ⟨6, _⟩ => ⟨S1, .f32⟩
  | .hbm, ⟨7, _⟩ => ⟨S64, .f32⟩
  | .hbm, ⟨8, _⟩ => ⟨S1x4096x64, .f32⟩
  | .hbm, ⟨9, _⟩ => ⟨S1x4096x1, .f32⟩
  | .hbm, ⟨10, _⟩ => ⟨S1x1x1, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x1x1, .f32⟩
  | .hbm, ⟨15, _⟩ => ⟨S1x4096x1, .f32⟩
  | .hbm, ⟨16, _⟩ => ⟨S1x4096x1, .f32⟩
  | .hbm, ⟨17, _⟩ => ⟨S1x1x4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S_, .f32⟩
  | .hbm, ⟨22, _⟩ => ⟨S_, .f32⟩
  | .hbm, ⟨23, _⟩ => ⟨S1x4096x4096, .f32⟩
  | .hbm, ⟨24, _⟩ => ⟨S1x4096x4096, .i1⟩
  | .hbm, ⟨25, _⟩ => ⟨S_, .f32⟩
  | .hbm, ⟨26, _⟩ => ⟨S1x4096x4096, .f32⟩
  | .hbm, ⟨27, _⟩ => ⟨S1x4096x4096, .f32⟩
  | .hbm, ⟨28, _⟩ => ⟨S1x4096x4096, .f32⟩
  | .hbm, ⟨29, _⟩ => ⟨S1x4096x4096, .f32⟩
  | .hbm, ⟨30, _⟩ => ⟨S_, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S1x4096x1, .f32⟩
  | .hbm, ⟨36, _⟩ => ⟨S1x4096x4096, .f32⟩
  | .hbm, ⟨37, _⟩ => ⟨S1x4096x4096, .f32⟩
  | .hbm, ⟨38, _⟩ => ⟨S1x4096x4096, .f32⟩
  | .hbm, ⟨39, _⟩ => ⟨S_, .f32⟩
  | .hbm, ⟨40, _⟩ => ⟨S1x4096, .f32⟩
  | .hbm, ⟨41, _⟩ => ⟨S1x4096x1, .f32⟩
  | .hbm, ⟨42, _⟩ => ⟨S1x4096x4096, .f32⟩
  | .hbm, ⟨43, _⟩ => ⟨S1x4096x4096, .f32⟩
  | .hbm, ⟨44, _⟩ => ⟨S1x4096x64, .f32⟩
  | .hbm, ⟨45, _⟩ => ⟨S1x1x64, .f32⟩
  | .hbm, ⟨46, _⟩ => ⟨S1x4096x64, .f32⟩
  | .hbm, ⟨47, _⟩ => ⟨S1x4096x64, .f32⟩
  | .hbm, ⟨48, _⟩ => ⟨S_, .f32⟩
  | .hbm, ⟨49, _⟩ => ⟨S1x4096x64, .f32⟩
  | .hbm, ⟨50, _⟩ => ⟨S1x4096x64, .i1⟩
  | .hbm, ⟨51, _⟩ => ⟨S_, .f32⟩
  | .hbm, ⟨52, _⟩ => ⟨S1x4096x64, .f32⟩
  | .hbm, ⟨53, _⟩ => ⟨S1x4096x64, .i1⟩
  | .hbm, ⟨54, _⟩ => ⟨S_, .f32⟩
  | .hbm, ⟨55, _⟩ => ⟨S_, .f32⟩
  | .hbm, ⟨56, _⟩ => ⟨S1x4096x64, .f32⟩
  | .hbm, ⟨57, _⟩ => ⟨S1x4096x64, .f32⟩
  | .hbm, ⟨58, _⟩ => ⟨S1x4096x64, .f32⟩
  | .hbm, ⟨59, _⟩ => ⟨S_, .f32⟩
  | .hbm, ⟨60, _⟩ => ⟨S1x4096x64, .f32⟩
  | .hbm, ⟨61, _⟩ => ⟨S1x4096x64, .f32⟩
  | .hbm, ⟨62, _⟩ => ⟨S1x4096x64, .f32⟩
  | .hbm, ⟨63, _⟩ => ⟨S4096x64, .f32⟩
  | .hbm, ⟨64, _⟩ => ⟨S_, .f32⟩
  | .hbm, ⟨65, _⟩ => ⟨S4096x64, .f32⟩
  | .hbm, ⟨66, _⟩ => ⟨S4096x64, .i1⟩
  | .hbm, ⟨67, _⟩ => ⟨S_, .f32⟩
  | .hbm, ⟨68, _⟩ => ⟨S4096x64, .f32⟩
  | .hbm, ⟨69, _⟩ => ⟨S4096x64, .i1⟩
  | .hbm, ⟨70, _⟩ => ⟨S_, .f32⟩
  | .hbm, ⟨71, _⟩ => ⟨S_, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S4096x64, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_cst_1 : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_v4 : Ref sig .tc := ⟨.hbm, 57, rfl⟩
abbrev main_call1_v5 : Ref sig .tc := ⟨.hbm, 58, rfl⟩
abbrev main_call1_cst_2 : Ref sig .tc := ⟨.hbm, 59, rfl⟩
abbrev main_call1_v6 : Ref sig .tc := ⟨.hbm, 60, rfl⟩
abbrev main_call1_v7 : Ref sig .tc := ⟨.hbm, 61, rfl⟩
abbrev main_v30 : Ref sig .tc := ⟨.hbm, 62, rfl⟩
abbrev main_v31 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_cst_1 : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_v4 : Ref sig .tc := ⟨.hbm, 73, rfl⟩
abbrev main_call2_v5 : Ref sig .tc := ⟨.hbm, 74, rfl⟩
abbrev main_call2_cst_2 : Ref sig .tc := ⟨.hbm, 75, rfl⟩
abbrev main_call2_v6 : Ref sig .tc := ⟨.hbm, 76, rfl⟩
abbrev main_call2_v7 : Ref sig .tc := ⟨.hbm, 77, rfl⟩
abbrev main_v32 : Ref sig .tc := ⟨.hbm, 78, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S1x4096x1_0_1_2 : S1x1x1.BroadcastsInDim S1x4096x1 (![0, 1, 2] : Fin 3 → Fin S1x4096x1.rank)
  transposes_S1x4096x1_S1x1x4096_0_2_1 : S1x4096x1.Transposes [0, 2, 1] S1x1x4096
  bcast_S1x4096x1_S1x4096x4096_0_1_2 : S1x4096x1.BroadcastsInDim S1x4096x4096 (![0, 1, 2] : Fin 3 → Fin S1x4096x4096.rank)
  bcast_S1x1x4096_S1x4096x4096_0_1_2 : S1x1x4096.BroadcastsInDim S1x4096x4096 (![0, 1, 2] : Fin 3 → Fin S1x4096x4096.rank)
  bcast_S_S1x4096x4096 : S_.BroadcastsInDim S1x4096x4096 (![] : Fin 0 → Fin S1x4096x4096.rank)
  reducesTo_S1x4096x4096_S1x4096_d2 : S1x4096x4096.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S64_S1x1x64_2 : S64.BroadcastsInDim S1x1x64 (![2] : Fin 1 → Fin S1x1x64.rank)
  bcast_S1x1x64_S1x4096x64_0_1_2 : S1x1x64.BroadcastsInDim S1x4096x64 (![0, 1, 2] : Fin 3 → Fin S1x4096x64.rank)
  bcast_S_S1x4096x64 : S_.BroadcastsInDim S1x4096x64 (![] : Fin 0 → Fin S1x4096x64.rank)
  shapeCasts_S1x4096x64_S4096x64 : S1x4096x64.ShapeCasts S4096x64
  bcast_S_S4096x64 : S_.BroadcastsInDim S4096x64 (![] : Fin 0 → Fin S4096x64.rank)
  dot_S1x4096x128_S128x64_S1x4096x64_2_0_01_1_n_n_wf : DotDims.WF S1x4096x128 S128x64 S1x4096x64 [2] [0] [0, 1] [1] [] []
  dot_S1x4096x64_S64x1_S1x4096x1_2_0_01_1_n_n_wf : DotDims.WF S1x4096x64 S64x1 S1x4096x1 [2] [0] [0, 1] [1] [] []
  dot_S1x4096x4096_S1x4096x64_S1x4096x64_2_1_1_2_0_0_wf : DotDims.WF S1x4096x4096 S1x4096x64 S1x4096x64 [2] [1] [1] [2] [0] [0]

variable [Facts₀]

def dot_S1x4096x128_S128x64_S1x4096x64_2_0_01_1_n_n : DotDims S1x4096x128 S128x64 S1x4096x64 where
  lhsContracting := [2]
  rhsContracting := [0]
  lhsNonContracting := [0, 1]
  rhsNonContracting := [1]
  lhsBatch := []
  rhsBatch := []
  wf := dot_S1x4096x128_S128x64_S1x4096x64_2_0_01_1_n_n_wf
def dot_S1x4096x64_S64x1_S1x4096x1_2_0_01_1_n_n : DotDims S1x4096x64 S64x1 S1x4096x1 where
  lhsContracting := [2]
  rhsContracting := [0]
  lhsNonContracting := [0, 1]
  rhsNonContracting := [1]
  lhsBatch := []
  rhsBatch := []
  wf := dot_S1x4096x64_S64x1_S1x4096x1_2_0_01_1_n_n_wf
def dot_S1x4096x4096_S1x4096x64_S1x4096x64_2_1_1_2_0_0 : DotDims S1x4096x4096 S1x4096x64 S1x4096x64 where
  lhsContracting := [2]
  rhsContracting := [1]
  lhsNonContracting := [1]
  rhsNonContracting := [2]
  lhsBatch := [0]
  rhsBatch := [0]
  wf := dot_S1x4096x4096_S1x4096x64_S1x4096x64_2_1_1_2_0_0_wf

class Facts : Prop extends Facts₀ where

variable [Facts]
-- ==== Proof.RefRun.lean ====
/-
  The reference program as a straight line of array operations. Its main function is some forty operations and three
  calls; a call runs the callee's operations on buffers of its own, so the whole program is one list of seventy-one
  operations, cut here into five consecutive stretches: the logits, the softmax, the weighted sum of features plus
  bias, and the two exponential-linear units. Every fair execution from a launch memory ends with each buffer holding
  what the list, folded over the launch contents, leaves in it.
-/
import proofs.«128342_g53772990545978_cont_sun_c4_684_8_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations up to the shifted, rectified logits: the features, the two scores, their pairwise sum, the rectifier and the adjacency shift. -/
def opsLogit : List (HloOp τ sig (Elt F)) :=
  [ binary main_arg0 main_arg2 main_v0 ((fun l r => Host.dotGeneral dot_S1x4096x128_S128x64_S1x4096x64_2_0_01_1_n_n none l r) : (⟨S1x4096x128, .f32⟩ : BufTy).Contents (Elt F) → (⟨S128x64, .f32⟩ : BufTy).Contents (Elt F) → (⟨S1x4096x64, .f32⟩ : BufTy).Contents (Elt F)),
    binary main_v0 main_arg3 main_v1 ((fun l r => Host.dotGeneral dot_S1x4096x64_S64x1_S1x4096x1_2_0_01_1_n_n none l r) : (⟨S1x4096x64, .f32⟩ : BufTy).Contents (Elt F) → (⟨S64x1, .f32⟩ : BufTy).Contents (Elt F) → (⟨S1x4096x1, .f32⟩ : BufTy).Contents (Elt F)),
    unary main_arg4 main_v2 (broadcastInDim S1x1x1 ![2] bcast_S1_S1x1x1_2 : (⟨S1, .f32⟩ : BufTy).Contents (Elt F) → (⟨S1x1x1, .f32⟩ : BufTy).Contents (Elt F)),
    unary main_v2 main_v3 (broadcastInDim S1x4096x1 ![0, 1, 2] bcast_S1x1x1_S1x4096x1_0_1_2 : (⟨S1x1x1, .f32⟩ : BufTy).Contents (Elt F) → (⟨S1x4096x1, .f32⟩ : BufTy).Contents (Elt F)),
    binary main_v1 main_v3 main_v4 (addf : (⟨S1x4096x1, .f32⟩ : BufTy).Contents (Elt F) → (⟨S1x4096x1, .f32⟩ : BufTy).Contents (Elt F) → (⟨S1x4096x1, .f32⟩ : BufTy).Contents (Elt F)),
    binary main_v0 main_arg5 main_v5 ((fun l r => Host.dotGeneral dot_S1x4096x64_S64x1_S1x4096x1_2_0_01_1_n_n none l r) : (⟨S1x4096x64, .f32⟩ : BufTy).Contents (Elt F) → (⟨S64x1, .f32⟩ : BufTy).Contents (Elt F) → (⟨S1x4096x1, .f32⟩ : BufTy).Contents (Elt F)),
    unary main_arg6 main_v6 (broadcastInDim S1x1x1 ![2] bcast_S1_S1x1x1_2 : (⟨S1, .f32⟩ : BufTy).Contents (Elt F) → (⟨S1x1x1, .f32⟩ : BufTy).Contents (Elt F)),
    unary main_v6 main_v7 (broadcastInDim S1x4096x1 ![0, 1, 2] bcast_S1x1x1_S1x4096x1_0_1_2 : (⟨S1x1x1, .f32⟩ : BufTy).Contents (Elt F) → (⟨S1x4096x1, .f32⟩ : BufTy).Contents (Elt F)),
    binary main_v5 main_v7 main_v8 (addf : (⟨S1x4096x1, .f32⟩ : BufTy).Contents (Elt F) → (⟨S1x4096x1, .f32⟩ : BufTy).Contents (Elt F) → (⟨S1x4096x1, .f32⟩ : BufTy).Contents (Elt F)),
    unary main_v8 main_v9 ((transpose S1x1x4096 [0, 2, 1] · transposes_S1x4096x1_S1x1x4096_0_2_1) : (⟨S1x4096x1, .f32⟩ : BufTy).Contents (Elt F) → (⟨S1x1x4096, .f32⟩ : BufTy).Contents (Elt F)),
    unary main_v4 main_v10 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    unary main_v9 main_v11 (broadcastInDim S1x4096x4096 ![0, 1, 2] bcast_S1x1x4096_S1x4096x4096_0_1_2 : (⟨S1x1x4096, .f32⟩ : BufTy).Contents (Elt F) → (⟨S1x4096x4096, .f32⟩ : BufTy).Contents (Elt F)),
    binary main_v10 main_v11 main_v12 (addf : (⟨S1x4096x4096, .f32⟩ : BufTy).Contents (Elt F) → (⟨S1x4096x4096, .f32⟩ : BufTy).Contents (Elt F) → (⟨S1x4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S1x4096x4096 ![] bcast_S_S1x4096x4096),
    TRef.binary (.of main_v12 : TRef sig ⟨S1x4096x4096, .f32⟩) main_call0.v0 main_call0.v1 (cmpf .oge),
    TRef.unary (.of main_cst : TRef sig ⟨S_, .f32⟩) main_call0.v2 id,
    TRef.unary main_call0.v2 main_call0.v3 (broadcastInDim S1x4096x4096 ![] bcast_S_S1x4096x4096),
    TRef.binary main_call0.v3 (.of main_v12 : TRef sig ⟨S1x4096x4096, .f32⟩) main_call0.v4 mulf,
    TRef.ternary main_call0.v1 (.of main_v12 : TRef sig ⟨S1x4096x4096, .f32⟩) main_call0.v4 main_call0.call0.v0 select,
    binary main_v13 main_arg1 main_v14 (addf : (⟨S1x4096x4096, .f32⟩ : BufTy).Contents (Elt F) → (⟨S1x4096x4096, .f32⟩ : BufTy).Contents (Elt F) → (⟨S1x4096x4096, .f32⟩ : BufTy).Contents (Elt F)) ]

/-- The row-wise softmax of the logits: the row maximum, the shifted exponential, the row sum and the quotient. -/
def opsSoftmax : List (HloOp τ sig (Elt F)) :=
  [ nullary main_cst_0 (constant S_ .f32 0xFF800000#32),
    binary main_v14 main_cst_0 main_v15 ((fun x v => Host.reduce FloatOps.maximumf x v reducesTo_S1x4096x4096_S1x4096_d2 h_S_) : (⟨S1x4096x4096, .f32⟩ : BufTy).Contents (Elt F) → (⟨S_, .f32⟩ : BufTy).Contents (Elt F) → (⟨S1x4096, .f32⟩ : BufTy).Contents (Elt F)),
    nullary main_cst_1 (constant S_ .f32 0xFF800000#32),
    unary main_cst_1 main_v16 (broadcastInDim S1x4096 ![] bcast_S_S1x4096 : (⟨S_, .f32⟩ : BufTy).Contents (Elt F) → (⟨S1x4096, .f32⟩ : BufTy).Contents (Elt F)),
    binary main_v16 main_v15 main_v17 (maximumf : (⟨S1x4096, .f32⟩ : BufTy).Contents (Elt F) → (⟨S1x4096, .f32⟩ : BufTy).Contents (Elt F) → (⟨S1x4096, .f32⟩ : BufTy).Contents (Elt F)),
    unary main_v17 main_v18 (broadcastInDim S1x4096x1 ![0, 1] bcast_S1x4096_S1x4096x1_0_1 : (⟨S1x4096, .f32⟩ : BufTy).Contents (Elt F) → (⟨S1x4096x1, .f32⟩ : BufTy).Contents (Elt F)),
    unary main_v18 main_v19 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    binary main_v14 main_v19 main_v20 (subf : (⟨S1x4096x4096, .f32⟩ : BufTy).Contents (Elt F) → (⟨S1x4096x4096, .f32⟩ : BufTy).Contents (Elt F) → (⟨S1x4096x4096, .f32⟩ : BufTy).Contents (Elt F)),
    unary main_v20 main_v21 (Host.exp : (⟨S1x4096x4096, .f32⟩ : BufTy).Contents (Elt F) → (⟨S1x4096x4096, .f32⟩ : BufTy).Contents (Elt F)),
    nullary main_cst_2 (constant S_ .f32 0x00000000#32),
    binary main_v21 main_cst_2 main_v22 ((fun x v => Host.reduceAdd x v reducesTo_S1x4096x4096_S1x4096_d2 h_S_) : (⟨S1x4096x4096, .f32⟩ : BufTy).Contents (Elt F) → (⟨S_, .f32⟩ : BufTy).Contents (Elt F) → (⟨S1x4096, .f32⟩ : BufTy).Contents (Elt F)),
    unary main_v22 main_v23 (broadcastInDim S1x4096x1 ![0, 1] bcast_S1x4096_S1x4096x1_0_1 : (⟨S1x4096, .f32⟩ : BufTy).Contents (Elt F) → (⟨S1x4096x1, .f32⟩ : BufTy).Contents (Elt F)),
    unary main_v23 main_v24 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    binary main_v21 main_v24 main_v25 (Host.divf : (⟨S1x4096x4096, .f32⟩ : BufTy).Contents (Elt F) → (⟨S1x4096x4096, .f32⟩ : BufTy).Contents (Elt F) → (⟨S1x4096x4096, .f32⟩ : BufTy).Contents (Elt F)) ]

/-- The normalised coefficients times the features, plus the bias. -/
def opsMix : List (HloOp τ sig (Elt F)) :=
  [ binary main_v25 main_v0 main_v26 ((fun l r => Host.dotGeneral dot_S1x4096x4096_S1x4096x64_S1x4096x64_2_1_1_2_0_0 none l r) : (⟨S1x4096x4096, .f32⟩ : BufTy).Contents (Elt F) → (⟨S1x4096x64, .f32⟩ : BufTy).Contents (Elt F) → (⟨S1x4096x64, .f32⟩ : BufTy).Contents (Elt F)),
    unary main_arg7 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S1x4096x64 ![0, 1, 2] bcast_S1x1x64_S1x4096x64_0_1_2 : (⟨S1x1x64, .f32⟩ : BufTy).Contents (Elt F) → (⟨S1x4096x64, .f32⟩ : BufTy).Contents (Elt F)),
    binary main_v26 main_v28 main_v29 (addf : (⟨S1x4096x64, .f32⟩ : BufTy).Contents (Elt F) → (⟨S1x4096x64, .f32⟩ : BufTy).Contents (Elt F) → (⟨S1x4096x64, .f32⟩ : BufTy).Contents (Elt F)) ]

/-- The first exponential-linear unit, on the array of three axes, and the change to two axes. -/
def opsUnit1 : List (HloOp τ sig (Elt F)) :=
  [ TRef.nullary main_call1.cst (constant S_ .f32 0x00000000#32),
    TRef.unary main_call1.cst main_call1.v0 (broadcastInDim S1x4096x64 ![] bcast_S_S1x4096x64),
    TRef.binary (.of main_v29 : TRef sig ⟨S1x4096x64, .f32⟩) main_call1.v0 main_call1.v1 (cmpf .ogt),
    TRef.nullary main_call1.cst_0 (constant S_ .f32 0x00000000#32),
    TRef.unary main_call1.cst_0 main_call1.v2 (broadcastInDim S1x4096x64 ![] bcast_S_S1x4096x64),
    TRef.binary (.of main_v29 : TRef sig ⟨S1x4096x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S1x4096x64 ![] bcast_S_S1x4096x64),
    TRef.ternary main_call1.v3 main_call1.call0.v1 (.of main_v29 : TRef sig ⟨S1x4096x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S1x4096x64 ![] bcast_S_S1x4096x64),
    TRef.binary main_call1.v6 main_call1.v5 main_call1.v7 mulf,
    TRef.ternary main_call1.v1 (.of main_v29 : TRef sig ⟨S1x4096x64, .f32⟩) main_call1.v7 main_call1.call1.v0 select,
    reshape main_v30 main_v31 rfl shapeCasts_S1x4096x64_S4096x64 ]

/-- The second exponential-linear unit, on the array of two axes. -/
def opsUnit2 : List (HloOp τ sig (Elt F)) :=
  [ TRef.nullary main_call2.cst (constant S_ .f32 0x00000000#32),
    TRef.unary main_call2.cst main_call2.v0 (broadcastInDim S4096x64 ![] bcast_S_S4096x64),
    TRef.binary (.of main_v31 : TRef sig ⟨S4096x64, .f32⟩) main_call2.v0 main_call2.v1 (cmpf .ogt),
    TRef.nullary main_call2.cst_0 (constant S_ .f32 0x00000000#32),
    TRef.unary main_call2.cst_0 main_call2.v2 (broadcastInDim S4096x64 ![] bcast_S_S4096x64),
    TRef.binary (.of main_v31 : TRef sig ⟨S4096x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x64 ![] bcast_S_S4096x64),
    TRef.ternary main_call2.v3 main_call2.call0.v1 (.of main_v31 : TRef sig ⟨S4096x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4096x64 ![] bcast_S_S4096x64),
    TRef.binary main_call2.v6 main_call2.v5 main_call2.v7 mulf,
    TRef.ternary main_call2.v1 (.of main_v31 : TRef sig ⟨S4096x64, .f32⟩) main_call2.v7 main_call2.call1.v0 select ]

/-- Every operation of the program, the callees' operations in place of the calls. -/
abbrev ops : List (HloOp τ sig (Elt F)) :=
  [ binary main_arg0 main_arg2 main_v0 ((fun l r => Host.dotGeneral dot_S1x4096x128_S128x64_S1x4096x64_2_0_01_1_n_n none l r) : (⟨S1x4096x128, .f32⟩ : BufTy).Contents (Elt F) → (⟨S128x64, .f32⟩ : BufTy).Contents (Elt F) → (⟨S1x4096x64, .f32⟩ : BufTy).Contents (Elt F)),
    binary main_v0 main_arg3 main_v1 ((fun l r => Host.dotGeneral dot_S1x4096x64_S64x1_S1x4096x1_2_0_01_1_n_n none l r) : (⟨S1x4096x64, .f32⟩ : BufTy).Contents (Elt F) → (⟨S64x1, .f32⟩ : BufTy).Contents (Elt F) → (⟨S1x4096x1, .f32⟩ : BufTy).Contents (Elt F)),
    unary main_arg4 main_v2 (broadcastInDim S1x1x1 ![2] bcast_S1_S1x1x1_2 : (⟨S1, .f32⟩ : BufTy).Contents (Elt F) → (⟨S1x1x1, .f32⟩ : BufTy).Contents (Elt F)),
    unary main_v2 main_v3 (broadcastInDim S1x4096x1 ![0, 1, 2] bcast_S1x1x1_S1x4096x1_0_1_2 : (⟨S1x1x1, .f32⟩ : BufTy).Contents (Elt F) → (⟨S1x4096x1, .f32⟩ : BufTy).Contents (Elt F)),
    binary main_v1 main_v3 main_v4 (addf : (⟨S1x4096x1, .f32⟩ : BufTy).Contents (Elt F) → (⟨S1x4096x1, .f32⟩ : BufTy).Contents (Elt F) → (⟨S1x4096x1, .f32⟩ : BufTy).Contents (Elt F)),
    binary main_v0 main_arg5 main_v5 ((fun l r => Host.dotGeneral dot_S1x4096x64_S64x1_S1x4096x1_2_0_01_1_n_n none l r) : (⟨S1x4096x64, .f32⟩ : BufTy).Contents (Elt F) → (⟨S64x1, .f32⟩ : BufTy).Contents (Elt F) → (⟨S1x4096x1, .f32⟩ : BufTy).Contents (Elt F)),
    unary main_arg6 main_v6 (broadcastInDim S1x1x1 ![2] bcast_S1_S1x1x1_2 : (⟨S1, .f32⟩ : BufTy).Contents (Elt F) → (⟨S1x1x1, .f32⟩ : BufTy).Contents (Elt F)),
    unary main_v6 main_v7 (broadcastInDim S1x4096x1 ![0, 1, 2] bcast_S1x1x1_S1x4096x1_0_1_2 : (⟨S1x1x1, .f32⟩ : BufTy).Contents (Elt F) → (⟨S1x4096x1, .f32⟩ : BufTy).Contents (Elt F)),
    binary main_v5 main_v7 main_v8 (addf : (⟨S1x4096x1, .f32⟩ : BufTy).Contents (Elt F) → (⟨S1x4096x1, .f32⟩ : BufTy).Contents (Elt F) → (⟨S1x4096x1, .f32⟩ : BufTy).Contents (Elt F)),
    unary main_v8 main_v9 ((transpose S1x1x4096 [0, 2, 1] · transposes_S1x4096x1_S1x1x4096_0_2_1) : (⟨S1x4096x1, .f32⟩ : BufTy).Contents (Elt F) → (⟨S1x1x4096, .f32⟩ : BufTy).Contents (Elt F)),
    unary main_v4 main_v10 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    unary main_v9 main_v11 (broadcastInDim S1x4096x4096 ![0, 1, 2] bcast_S1x1x4096_S1x4096x4096_0_1_2 : (⟨S1x1x4096, .f32⟩ : BufTy).Contents (Elt F) → (⟨S1x4096x4096, .f32⟩ : BufTy).Contents (Elt F)),
    binary main_v10 main_v11 main_v12 (addf : (⟨S1x4096x4096, .f32⟩ : BufTy).Contents (Elt F) → (⟨S1x4096x4096, .f32⟩ : BufTy).Contents (Elt F) → (⟨S1x4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S1x4096x4096 ![] bcast_S_S1x4096x4096),
    TRef.binary (.of main_v12 : TRef sig ⟨S1x4096x4096, .f32⟩) main_call0.v0 main_call0.v1 (cmpf .oge),
    TRef.unary (.of main_cst : TRef sig ⟨S_, .f32⟩) main_call0.v2 id,
    TRef.unary main_call0.v2 main_call0.v3 (broadcastInDim S1x4096x4096 ![] bcast_S_S1x4096x4096),
    TRef.binary main_call0.v3 (.of main_v12 : TRef sig ⟨S1x4096x4096, .f32⟩) main_call0.v4 mulf,
    TRef.ternary main_call0.v1 (.of main_v12 : TRef sig ⟨S1x4096x4096, .f32⟩) main_call0.v4 main_call0.call0.v0 select,
    binary main_v13 main_arg1 main_v14 (addf : (⟨S1x4096x4096, .f32⟩ : BufTy).Contents (Elt F) → (⟨S1x4096x4096, .f32⟩ : BufTy).Contents (Elt F) → (⟨S1x4096x4096, .f32⟩ : BufTy).Contents (Elt F)),
    nullary main_cst_0 (constant S_ .f32 0xFF800000#32),
    binary main_v14 main_cst_0 main_v15 ((fun x v => Host.reduce FloatOps.maximumf x v reducesTo_S1x4096x4096_S1x4096_d2 h_S_) : (⟨S1x4096x4096, .f32⟩ : BufTy).Contents (Elt F) → (⟨S_, .f32⟩ : BufTy).Contents (Elt F) → (⟨S1x4096, .f32⟩ : BufTy).Contents (Elt F)),
    nullary main_cst_1 (constant S_ .f32 0xFF800000#32),
    unary main_cst_1 main_v16 (broadcastInDim S1x4096 ![] bcast_S_S1x4096 : (⟨S_, .f32⟩ : BufTy).Contents (Elt F) → (⟨S1x4096, .f32⟩ : BufTy).Contents (Elt F)),
    binary main_v16 main_v15 main_v17 (maximumf : (⟨S1x4096, .f32⟩ : BufTy).Contents (Elt F) → (⟨S1x4096, .f32⟩ : BufTy).Contents (Elt F) → (⟨S1x4096, .f32⟩ : BufTy).Contents (Elt F)),
    unary main_v17 main_v18 (broadcastInDim S1x4096x1 ![0, 1] bcast_S1x4096_S1x4096x1_0_1 : (⟨S1x4096, .f32⟩ : BufTy).Contents (Elt F) → (⟨S1x4096x1, .f32⟩ : BufTy).Contents (Elt F)),
    unary main_v18 main_v19 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    binary main_v14 main_v19 main_v20 (subf : (⟨S1x4096x4096, .f32⟩ : BufTy).Contents (Elt F) → (⟨S1x4096x4096, .f32⟩ : BufTy).Contents (Elt F) → (⟨S1x4096x4096, .f32⟩ : BufTy).Contents (Elt F)),
    unary main_v20 main_v21 (Host.exp : (⟨S1x4096x4096, .f32⟩ : BufTy).Contents (Elt F) → (⟨S1x4096x4096, .f32⟩ : BufTy).Contents (Elt F)),
    nullary main_cst_2 (constant S_ .f32 0x00000000#32),
    binary main_v21 main_cst_2 main_v22 ((fun x v => Host.reduceAdd x v reducesTo_S1x4096x4096_S1x4096_d2 h_S_) : (⟨S1x4096x4096, .f32⟩ : BufTy).Contents (Elt F) → (⟨S_, .f32⟩ : BufTy).Contents (Elt F) → (⟨S1x4096, .f32⟩ : BufTy).Contents (Elt F)),
    unary main_v22 main_v23 (broadcastInDim S1x4096x1 ![0, 1] bcast_S1x4096_S1x4096x1_0_1 : (⟨S1x4096, .f32⟩ : BufTy).Contents (Elt F) → (⟨S1x4096x1, .f32⟩ : BufTy).Contents (Elt F)),
    unary main_v23 main_v24 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    binary main_v21 main_v24 main_v25 (Host.divf : (⟨S1x4096x4096, .f32⟩ : BufTy).Contents (Elt F) → (⟨S1x4096x4096, .f32⟩ : BufTy).Contents (Elt F) → (⟨S1x4096x4096, .f32⟩ : BufTy).Contents (Elt F)),
    binary main_v25 main_v0 main_v26 ((fun l r => Host.dotGeneral dot_S1x4096x4096_S1x4096x64_S1x4096x64_2_1_1_2_0_0 none l r) : (⟨S1x4096x4096, .f32⟩ : BufTy).Contents (Elt F) → (⟨S1x4096x64, .f32⟩ : BufTy).Contents (Elt F) → (⟨S1x4096x64, .f32⟩ : BufTy).Contents (Elt F)),
    unary main_arg7 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S1x4096x64 ![0, 1, 2] bcast_S1x1x64_S1x4096x64_0_1_2 : (⟨S1x1x64, .f32⟩ : BufTy).Contents (Elt F) → (⟨S1x4096x64, .f32⟩ : BufTy).Contents (Elt F)),
    binary main_v26 main_v28 main_v29 (addf : (⟨S1x4096x64, .f32⟩ : BufTy).Contents (Elt F) → (⟨S1x4096x64, .f32⟩ : BufTy).Contents (Elt F) → (⟨S1x4096x64, .f32⟩ : BufTy).Contents (Elt F)),
    TRef.nullary main_call1.cst (constant S_ .f32 0x00000000#32),
    TRef.unary main_call1.cst main_call1.v0 (broadcastInDim S1x4096x64 ![] bcast_S_S1x4096x64),
    TRef.binary (.of main_v29 : TRef sig ⟨S1x4096x64, .f32⟩) main_call1.v0 main_call1.v1 (cmpf .ogt),
    TRef.nullary main_call1.cst_0 (constant S_ .f32 0x00000000#32),
    TRef.unary main_call1.cst_0 main_call1.v2 (broadcastInDim S1x4096x64 ![] bcast_S_S1x4096x64),
    TRef.binary (.of main_v29 : TRef sig ⟨S1x4096x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S1x4096x64 ![] bcast_S_S1x4096x64),
    TRef.ternary main_call1.v3 main_call1.call0.v1 (.of main_v29 : TRef sig ⟨S1x4096x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S1x4096x64 ![] bcast_S_S1x4096x64),
    TRef.binary main_call1.v6 main_call1.v5 main_call1.v7 mulf,
    TRef.ternary main_call1.v1 (.of main_v29 : TRef sig ⟨S1x4096x64, .f32⟩) main_call1.v7 main_call1.call1.v0 select,
    reshape main_v30 main_v31 rfl shapeCasts_S1x4096x64_S4096x64,
    TRef.nullary main_call2.cst (constant S_ .f32 0x00000000#32),
    TRef.unary main_call2.cst main_call2.v0 (broadcastInDim S4096x64 ![] bcast_S_S4096x64),
    TRef.binary (.of main_v31 : TRef sig ⟨S4096x64, .f32⟩) main_call2.v0 main_call2.v1 (cmpf .ogt),
    TRef.nullary main_call2.cst_0 (constant S_ .f32 0x00000000#32),
    TRef.unary main_call2.cst_0 main_call2.v2 (broadcastInDim S4096x64 ![] bcast_S_S4096x64),
    TRef.binary (.of main_v31 : TRef sig ⟨S4096x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x64 ![] bcast_S_S4096x64),
    TRef.ternary main_call2.v3 main_call2.call0.v1 (.of main_v31 : TRef sig ⟨S4096x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4096x64 ![] bcast_S_S4096x64),
    TRef.binary main_call2.v6 main_call2.v5 main_call2.v7 mulf,
    TRef.ternary main_call2.v1 (.of main_v31 : TRef sig ⟨S4096x64, .f32⟩) main_call2.v7 main_call2.call1.v0 select ]

/-- The list is the five stretches one after the other. -/
theorem ops_split : (ops : List (HloOp τ sig (Elt F))) = opsLogit ++ (opsSoftmax ++ (opsMix ++ (opsUnit1 ++ opsUnit2))) := rfl

set_option maxRecDepth 8192 in
/-- The main function is that line: the callees unfolded at their calls, the sequencing re-associated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every fair execution of the program ends, each buffer of each device holding
    what the line leaves in it from the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.LibHostRun.lean ====
/-
  Two general facts about a straight line of host operations.
  The contents after a concatenation of two lines are the contents after the second line, from the contents after the first.
  A two-operand concatenate is a function of its two operands' contents only: equal contents, operand by operand, give
  equal results (a congruence rule for the operand list, which is a list of shape-and-array pairs).
-/
import Idealize.ShloMosaic.Lib.StableHlo.Run

noncomputable section

namespace Idealize.ShloMosaic.StableHlo

open Idealize.ShloMosaic

/-- Running `l₁ ++ l₂` is running `l₁`, then `l₂`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A two-operand concatenate with equal operands' contents. -/
theorem concat2_congr {α : Type} {t s₁ s₂ : Shape} (ax : Fin t.rank) (a a' : s₁.Idx → α) (b b' : s₂.Idx → α) (h)
    (ha : a = a') (hb : b = b') :
    concatenate t ax [⟨s₁, a⟩, ⟨s₂, b⟩] h = concatenate t ax [⟨s₁, a'⟩, ⟨s₂, b'⟩] h := by subst ha hb; rfl

end Idealize.ShloMosaic.StableHlo

end
-- ==== Proof.RefTerm.lean ====
/-
  What the reference leaves in its result buffer, as one pure term of the eight argument arrays.

  The term is a chain of named stages, one per step of the layer: the projected features (a product), a score (a product
  with a one-column weight plus a one-entry bias kept along the nodes), the pairwise sum of a column of source scores
  and a row of destination scores, the leaky rectifier as a selection, the adjacency shift, the row maximum, the
  shifted exponential, the row sum, the quotient, the product with the features plus the bias kept along the nodes,
  the exponential-linear unit (on either shape), and the change from three axes to two. Each of the five stretches of
  the program computes its part from the buffers it finds and leaves the other buffers alone; chained, the result
  buffer holds the whole term and the arguments are unchanged.
-/
import proofs.«128342_g53772990545978_cont_sun_c4_684_8_alg».proof.Proof.RefRun
import proofs.«128342_g53772990545978_cont_sun_c4_684_8_alg».proof.Proof.LibHostRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The projected features: X times W. -/
def stFeat (X : FVec F S1x4096x128 .f32) (W : FVec F S128x64 .f32) : FVec F S1x4096x64 .f32 :=
  Host.dotGeneral dot_S1x4096x128_S128x64_S1x4096x64_2_0_01_1_n_n none X W

/-- A score per node: the features times a one-column weight, plus a one-entry bias repeated along the nodes. -/
def stScore (feat : FVec F S1x4096x64 .f32) (w : FVec F S64x1 .f32) (b : FVec F S1 .f32) : FVec F S1x4096x1 .f32 :=
  addf (Host.dotGeneral dot_S1x4096x64_S64x1_S1x4096x1_2_0_01_1_n_n none feat w)
    (broadcastInDim S1x4096x1 ![0, 1, 2] bcast_S1x1x1_S1x4096x1_0_1_2 (broadcastInDim S1x1x1 ![2] bcast_S1_S1x1x1_2 b))

/-- The sum over pairs of nodes: the first score repeated along the columns plus the second, transposed, repeated along the rows. -/
def stPair (s d : FVec F S1x4096x1 .f32) : FVec F S1x4096x4096 .f32 :=
  addf (broadcastInDim S1x4096x4096 ![0, 1, 2] bcast_S1x4096x1_S1x4096x4096_0_1_2 s)
    (broadcastInDim S1x4096x4096 ![0, 1, 2] bcast_S1x1x4096_S1x4096x4096_0_1_2
      (transpose S1x1x4096 [0, 2, 1] d transposes_S1x4096x1_S1x1x4096_0_2_1))

/-- The leaky rectifier as a selection: the entry where it is at least zero, the slope times the entry elsewhere. -/
def stLeaky (l : FVec F S1x4096x4096 .f32) : FVec F S1x4096x4096 .f32 :=
  select (cmpf .oge l (broadcastInDim S1x4096x4096 ![] bcast_S_S1x4096x4096 (constant S_ .f32 0x00000000#32))) l
    (mulf (broadcastInDim S1x4096x4096 ![] bcast_S_S1x4096x4096 (constant S_ .f32 0x3E4CCCCD#32)) l)

/-- The logits: the rectified pairwise sums of the two scores, shifted by the adjacency. -/
def stLogit (feat : FVec F S1x4096x64 .f32) (adj : FVec F S1x4096x4096 .f32) (W1 : FVec F S64x1 .f32) (b1 : FVec F S1 .f32)
    (W2 : FVec F S64x1 .f32) (b2 : FVec F S1 .f32) : FVec F S1x4096x4096 .f32 :=
  addf (stLeaky (stPair (stScore feat W1 b1) (stScore feat W2 b2))) adj

/-- The greatest entry of each row, folded from minus infinity and compared with minus infinity once more. -/
def stRowMax (l : FVec F S1x4096x4096 .f32) : FVec F S1x4096 .f32 :=
  maximumf (broadcastInDim S1x4096 ![] bcast_S_S1x4096 (constant S_ .f32 0xFF800000#32))
    (Host.reduce FloatOps.maximumf l (constant S_ .f32 0xFF800000#32) reducesTo_S1x4096x4096_S1x4096_d2 h_S_)

/-- A value per row repeated along the row's columns. -/
def stAlong (v : FVec F S1x4096 .f32) : FVec F S1x4096x4096 .f32 :=
  broadcastInDim S1x4096x4096 ![0, 1, 2] bcast_S1x4096x1_S1x4096x4096_0_1_2
    (broadcastInDim S1x4096x1 ![0, 1] bcast_S1x4096_S1x4096x1_0_1 v)

/-- The exponential of each entry less its row's maximum. -/
def stExp (l : FVec F S1x4096x4096 .f32) : FVec F S1x4096x4096 .f32 := Host.exp (subf l (stAlong (stRowMax l)))

/-- The sum of each row, from zero. -/
def stRowSum (e : FVec F S1x4096x4096 .f32) : FVec F S1x4096 .f32 :=
  Host.reduceAdd e (constant S_ .f32 0x00000000#32) reducesTo_S1x4096x4096_S1x4096_d2 h_S_

/-- Each entry divided by its row's sum. -/
def stSoft (e : FVec F S1x4096x4096 .f32) : FVec F S1x4096x4096 .f32 := Host.divf e (stAlong (stRowSum e))

/-- The coefficients times the features, plus the bias repeated along the nodes. -/
def stPre (p : FVec F S1x4096x4096 .f32) (feat : FVec F S1x4096x64 .f32) (bias : FVec F S64 .f32) : FVec F S1x4096x64 .f32 :=
  addf (Host.dotGeneral dot_S1x4096x4096_S1x4096x64_S1x4096x64_2_1_1_2_0_0 none p feat)
    (broadcastInDim S1x4096x64 ![0, 1, 2] bcast_S1x1x64_S1x4096x64_0_1_2 (broadcastInDim S1x1x64 ![2] bcast_S64_S1x1x64_2 bias))

/-- The exponential-linear unit on an array of any shape: the entry where it is above zero; elsewhere one times the
    exponential, less one, of the entry with zero selected in its place where it is above zero. -/
def stElu (S : Shape) (hb : S_.BroadcastsInDim S (![] : Fin 0 → Fin S.rank)) (x : FVec F S .f32) : FVec F S .f32 :=
  select (cmpf .ogt x (broadcastInDim S ![] hb (constant S_ .f32 0x00000000#32))) x
    (mulf (broadcastInDim S ![] hb (constant S_ .f32 0x3F800000#32))
      (Host.expm1 (select (cmpf .ogt x (broadcastInDim S ![] hb (constant S_ .f32 0x00000000#32)))
        (broadcastInDim S ![] hb (constant S_ .f32 0x00000000#32)) x)))

/-- The array of three axes, its first of extent one, as an array of two. -/
def stFlat (y : FVec F S1x4096x64 .f32) : FVec F S4096x64 .f32 := shapeCast S4096x64 y shapeCasts_S1x4096x64_S4096x64

/-- The whole layer as the reference computes it. -/
def refTerm (X : FVec F S1x4096x128 .f32) (adj : FVec F S1x4096x4096 .f32) (W : FVec F S128x64 .f32) (W1 : FVec F S64x1 .f32)
    (b1 : FVec F S1 .f32) (W2 : FVec F S64x1 .f32) (b2 : FVec F S1 .f32) (bias : FVec F S64 .f32) : FVec F S4096x64 .f32 :=
  stElu S4096x64 bcast_S_S4096x64 (stFlat (stElu S1x4096x64 bcast_S_S1x4096x64
    (stPre (stSoft (stExp (stLogit (stFeat X W) adj W1 b1 W2 b2))) (stFeat X W) bias)))

/-! ## Each stretch of the program, from any contents -/

variable (V : Valuation τ sig (Elt F))

theorem logit_v14 : after opsLogit V (main_v14 : DevRef τ sig)
    = stLogit (stFeat (V (main_arg0 : DevRef τ sig)) (V (main_arg2 : DevRef τ sig))) (V (main_arg1 : DevRef τ sig)) (V (main_arg3 : DevRef τ sig)) (V (main_arg4 : DevRef τ sig)) (V (main_arg5 : DevRef τ sig)) (V (main_arg6 : DevRef τ sig)) := by
  unfold opsLogit
  after_results_simp
  rfl

theorem logit_v0 : after opsLogit V (main_v0 : DevRef τ sig) = stFeat (V (main_arg0 : DevRef τ sig)) (V (main_arg2 : DevRef τ sig)) := by
  unfold opsLogit
  after_results_simp
  rfl

theorem logit_arg7 : after opsLogit V (main_arg7 : DevRef τ sig) = (V (main_arg7 : DevRef τ sig)) := by
  unfold opsLogit
  after_results_simp

theorem softmax_v25 : after opsSoftmax V (main_v25 : DevRef τ sig) = stSoft (stExp (V (main_v14 : DevRef τ sig))) := by
  unfold opsSoftmax
  after_results_simp
  rfl

theorem softmax_v0 : after opsSoftmax V (main_v0 : DevRef τ sig) = (V (main_v0 : DevRef τ sig)) := by
  unfold opsSoftmax
  after_results_simp

theorem softmax_arg7 : after opsSoftmax V (main_arg7 : DevRef τ sig) = (V (main_arg7 : DevRef τ sig)) := by
  unfold opsSoftmax
  after_results_simp

theorem mix_v29 : after opsMix V (main_v29 : DevRef τ sig) = stPre (V (main_v25 : DevRef τ sig)) (V (main_v0 : DevRef τ sig)) (V (main_arg7 : DevRef τ sig)) := by
  unfold opsMix
  after_results_simp
  rfl

theorem unit1_v31 : after opsUnit1 V (main_v31 : DevRef τ sig) = stFlat (stElu S1x4096x64 bcast_S_S1x4096x64 (V (main_v29 : DevRef τ sig))) := by
  unfold opsUnit1
  after_results_simp
  rfl

theorem unit2_v32 : after opsUnit2 V (main_v32 : DevRef τ sig) = stElu S4096x64 bcast_S_S4096x64 (V (main_v31 : DevRef τ sig)) := by
  unfold opsUnit2
  after_results_simp
  rfl

/-! ## The whole program -/

/-- The result buffer holds the whole term of the arguments' contents. -/
theorem result_eq : after ops V (main_v32 : DevRef τ sig)
    = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, after_append, after_append, after_append, after_append, unit2_v32, unit1_v31, mix_v29, softmax_v25,
    softmax_v0, softmax_arg7, logit_v14, logit_v0, logit_arg7]
  rfl

theorem arg0_eq : after ops V (main_arg0 : DevRef τ sig) = (V (main_arg0 : DevRef τ sig)) := by
  after_results_simp

theorem arg1_eq : after ops V (main_arg1 : DevRef τ sig) = (V (main_arg1 : DevRef τ sig)) := by
  after_results_simp

theorem arg2_eq : after ops V (main_arg2 : DevRef τ sig) = (V (main_arg2 : DevRef τ sig)) := by
  after_results_simp

theorem arg3_eq : after ops V (main_arg3 : DevRef τ sig) = (V (main_arg3 : DevRef τ sig)) := by
  after_results_simp

theorem arg4_eq : after ops V (main_arg4 : DevRef τ sig) = (V (main_arg4 : DevRef τ sig)) := by
  after_results_simp

theorem arg5_eq : after ops V (main_arg5 : DevRef τ sig) = (V (main_arg5 : DevRef τ sig)) := by
  after_results_simp

theorem arg6_eq : after ops V (main_arg6 : DevRef τ sig) = (V (main_arg6 : DevRef τ sig)) := by
  after_results_simp

theorem arg7_eq : after ops V (main_arg7 : DevRef τ sig) = (V (main_arg7 : DevRef τ sig)) := by
  after_results_simp

end Cert.RefSide

end
-- ==== Proof.Spec.lean ====
/-
  One graph-attention layer over 4096 nodes, as two formulas on the extended reals.

  From the eight argument arrays: the projected features  feat n o = ∑ i, X n i · W i o  (128 inputs, 64 outputs), the
  two attention scores  src n = ∑ o, feat n o · W1 o + b1  and  dst n = ∑ o, feat n o · W2 o + b2,  the logit of the
  pair (r, c)  src r + dst c,  passed through a leaky rectifier of slope 0.2 and shifted by the adjacency entry (r, c).
  A row of the result is the softmax of a row of logits applied to the features, plus a bias, through two
  exponential-linear units.

  `kerOut` spells the row as the kernel computes it: the rectifier as max (l, slope · l); no shift of the logits before
  the exponential; the normalising sum obtained as the product of the exponentials with a column of ones; one division
  per row, after the product.  `refOut` spells it as the reference does: the rectifier as a selection on l ≥ 0; the
  row maximum subtracted before the exponential; every coefficient divided by the row sum before the product; the
  exponential-linear unit through exp(min-like selection) − 1.
-/
import Idealize.ShloMosaic.PureOps.Ideal
import Idealize.ShloMosaic.PureOps.Ideal.Laws
import Idealize.ShloMosaic.Lib.ValueIdx

noncomputable section

open scoped BigOperators

namespace Cert.GatSpec

open Idealize.ShloMosaic Idealize.ShloMosaic.ValueIdx

/-- The eight argument arrays, in the programs' own shapes. -/
structure Args where
  X : (⟨3, ![1, 4096, 128]⟩ : Shape).Idx → EReal
  adj : (⟨3, ![1, 4096, 4096]⟩ : Shape).Idx → EReal
  W : (⟨2, ![128, 64]⟩ : Shape).Idx → EReal
  W1 : (⟨2, ![64, 1]⟩ : Shape).Idx → EReal
  b1 : (⟨1, ![1]⟩ : Shape).Idx → EReal
  W2 : (⟨2, ![64, 1]⟩ : Shape).Idx → EReal
  b2 : (⟨1, ![1]⟩ : Shape).Idx → EReal
  bias : (⟨1, ![64]⟩ : Shape).Idx → EReal

/-- The float patterns both programs spell, as the extended reals they denote. -/
abbrev oneBits : EReal := Ideal.ofBits .f32 0x3F800000#32
abbrev slopeBits : EReal := Ideal.ofBits .f32 0x3E4CCCCD#32
abbrev ninfBits : EReal := Ideal.ofBits .f32 0xFF800000#32

variable (a : Args)

/-- The projected features: row `n` of X times column `o` of W. -/
def feat (n : Fin 4096) (o : Fin 64) : EReal := ∑ i : Fin 128, a.X (ix3 (0 : Fin 1) n i) * a.W (ix2 i o)

/-- The source score of node `n`. -/
def src (n : Fin 4096) : EReal := (∑ o : Fin 64, feat a n o * a.W1 (ix2 o (0 : Fin 1))) + a.b1 (ix1 (0 : Fin 1))

/-- The destination score of node `n`, the features on the right of the product (the reference's order). -/
def dst (n : Fin 4096) : EReal := (∑ o : Fin 64, feat a n o * a.W2 (ix2 o (0 : Fin 1))) + a.b2 (ix1 (0 : Fin 1))

/-- The destination score with the weight on the left of the product (the kernel's order). -/
def dstK (n : Fin 4096) : EReal := (∑ o : Fin 64, a.W2 (ix2 o (0 : Fin 1)) * feat a n o) + a.b2 (ix1 (0 : Fin 1))

/-! ## The kernel's spelling -/

/-- The shifted, rectified logit of the pair (r, c): the rectifier as a maximum. -/
def logitK (r c : Fin 4096) : EReal :=
  max (src a r + dstK a c) (slopeBits * (src a r + dstK a c)) + a.adj (ix3 (0 : Fin 1) r c)

/-- The exponential-linear unit as the kernel writes it. -/
def eluK (x : EReal) : EReal := Scalar.select (Ideal.cmp .ogt x 0) x (Ideal.exp x - oneBits)

/-- The row before the two units: the unnormalised product, times the reciprocal of the row's sum of exponentials
    (itself a product with ones), plus the bias. -/
def preK (r : Fin 4096) (o : Fin 64) : EReal :=
  (∑ k : Fin 4096, Ideal.exp (logitK a r k) * feat a k o)
    * Ideal.div oneBits (∑ k : Fin 4096, Ideal.exp (logitK a r k) * oneBits) + a.bias (ix1 o)

/-- The result at (r, o) in the kernel's spelling. -/
def kerOut (r : Fin 4096) (o : Fin 64) : EReal := eluK (eluK (preK a r o))

/-! ## The reference's spelling -/

/-- The shifted, rectified logit of the pair (r, c): the rectifier as a selection. -/
def logitR (r c : Fin 4096) : EReal :=
  Scalar.select (Ideal.cmp .oge (src a r + dst a c) 0) (src a r + dst a c) (slopeBits * (src a r + dst a c))
    + a.adj (ix3 (0 : Fin 1) r c)

/-- The greatest logit of row `r`, folded from −∞ and once more compared with −∞. -/
def rowMax (r : Fin 4096) : EReal :=
  max ninfBits ((Finset.univ : Finset (Fin 4096)).fold max ninfBits (fun k => logitR a r k))

/-- The shifted exponential. -/
def expR (r c : Fin 4096) : EReal := Ideal.exp (logitR a r c - rowMax a r)

/-- The row's sum of shifted exponentials, from zero. -/
def rowSum (r : Fin 4096) : EReal := 0 + ∑ k : Fin 4096, expR a r k

/-- The exponential-linear unit as the reference writes it. -/
def eluR (x : EReal) : EReal :=
  Scalar.select (Ideal.cmp .ogt x 0) x (oneBits * (Ideal.exp (Scalar.select (Ideal.cmp .ogt x 0) 0 x) - 1))

/-- The row before the two units: the normalised coefficients times the features, plus the bias. -/
def preR (r : Fin 4096) (o : Fin 64) : EReal :=
  (∑ k : Fin 4096, Ideal.div (expR a r k) (rowSum a r) * feat a k o) + a.bias (ix1 o)

/-- The result at (r, o) in the reference's spelling. -/
def refOut (r : Fin 4096) (o : Fin 64) : EReal := eluR (eluR (preR a r o))

/-! ## As whole arrays -/

/-- The kernel's result array. -/
def kerArr : (⟨2, ![4096, 64]⟩ : Shape).Idx → EReal := fun j => kerOut a (j 0) (j 1)

/-- The reference's result array. -/
def refArr : (⟨2, ![4096, 64]⟩ : Shape).Idx → EReal := fun j => refOut a (j 0) (j 1)

theorem kerArr_ix2 (r : Fin 4096) (o : Fin 64) : kerArr a (ix2 r o) = kerOut a r o := rfl
theorem refArr_ix2 (r : Fin 4096) (o : Fin 64) : refArr a (ix2 r o) = refOut a r o := rfl

/-- Every entry of every argument is a real number. -/
structure Args.Finite : Prop where
  X : ∀ i, ∃ x : ℝ, a.X i = x
  adj : ∀ i, ∃ x : ℝ, a.adj i = x
  W : ∀ i, ∃ x : ℝ, a.W i = x
  W1 : ∀ i, ∃ x : ℝ, a.W1 i = x
  b1 : ∀ i, ∃ x : ℝ, a.b1 i = x
  W2 : ∀ i, ∃ x : ℝ, a.W2 i = x
  b2 : ∀ i, ∃ x : ℝ, a.b2 i = x
  bias : ∀ i, ∃ x : ℝ, a.bias i = x

end Cert.GatSpec

end
-- ==== Proof.RefReadBasics.lean ====
/-
  Small readings shared by the stages of the reference: a scalar repeated over a whole array reads the scalar; the
  host's exponential, exponential less one and quotient act entry by entry, and at the extended reals they are the
  exponential, the exponential less one and the quotient of the extended reals.
-/
import proofs.«128342_g53772990545978_cont_sun_c4_684_8_alg».proof.Proof.RefTerm
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefSide

open Cert.ReferenceIdeal Cert.ReferenceIdeal.Gen Idealize.ShloMosaic Idealize.ShloMosaic.ValueIdx

/-- A scalar constant repeated over any shape reads, anywhere, the constant. -/
theorem splat_apply (S : Shape) (hb : S_.BroadcastsInDim S (![] : Fin 0 → Fin S.rank)) (w : BitVec 32) (i : S.Idx) :
    broadcastInDim S ![] hb (constant (F := Ideal) S_ .f32 w) i = Ideal.ofBits .f32 w := rfl

theorem hostExp_apply {S : Shape} (x : FVec Ideal S .f32) (i : S.Idx) : Host.exp x i = Ideal.exp (x i) := rfl

theorem hostExpm1_apply {S : Shape} (x : FVec Ideal S .f32) (i : S.Idx) : Host.expm1 x i = Ideal.exp (x i) - 1 := rfl

theorem hostDivf_apply {S : Shape} (x y : FVec Ideal S .f32) (i : S.Idx) : Host.divf x y i = Ideal.div (x i) (y i) := rfl

end Cert.RefSide

end
-- ==== Proof.RefReadLogit.lean ====
/-
  The logits of the reference read entry by entry, at the extended reals.

  A product with one contracted axis is, at an entry, the finite sum over the contracted position; a value repeated
  along an axis reads the same wherever it is read along that axis; a scalar repeated over a whole array reads the
  scalar. With these the features, the two scores, their pairwise sum, the rectifier and the adjacency shift, read at
  (0, r, c), give the specification's logit of the pair (r, c).
-/
import proofs.«128342_g53772990545978_cont_sun_c4_684_8_alg».proof.Proof.RefTerm
import proofs.«128342_g53772990545978_cont_sun_c4_684_8_alg».proof.Proof.RefReadBasics
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefSide

open Cert.ReferenceIdeal Cert.ReferenceIdeal.Gen Idealize.ShloMosaic Idealize.ShloMosaic.ValueIdx

/-- The dimension numbers of the product X·W, and of a product of the features with a one-column weight. -/
abbrev dFeat := dot_S1x4096x128_S128x64_S1x4096x64_2_0_01_1_n_n
abbrev dScore := dot_S1x4096x64_S64x1_S1x4096x1_2_0_01_1_n_n

/-- The projected features at node n, output o: the sum over the 128 inputs. -/
theorem stFeat_apply (X : FVec Ideal S1x4096x128 .f32) (W : FVec Ideal S128x64 .f32) (n : Fin 4096) (o : Fin 64) :
    stFeat X W (ix3 (0 : Fin 1) n o) = ∑ i : Fin 128, X (ix3 (0 : Fin 1) n i) * W (ix2 i o) := by
  unfold stFeat
  refine (Ideal.dotGeneral_apply dFeat none .single X W _).trans ?_
  rw [← Equiv.sum_comp (contrEquiv1 dFeat 128 rfl rfl).symm]
  refine Finset.sum_congr rfl fun k _ => ?_
  have hk := contrEquiv1_symm_val dFeat 128 rfl rfl k
  have el : dFeat.lhsIdx (ix3 (0 : Fin 1) n o) ((contrEquiv1 dFeat 128 rfl rfl).symm k) = ix3 (0 : Fin 1) n k :=
    funext fun a => Fin.ext (by
      match a with
      | ⟨0, _⟩ => rfl
      | ⟨1, _⟩ => rfl
      | ⟨2, _⟩ => exact (DotDims.lhsIdx_val_of_single dFeat rfl _ _).trans hk)
  have er : dFeat.rhsIdx (ix3 (0 : Fin 1) n o) ((contrEquiv1 dFeat 128 rfl rfl).symm k) = ix2 k o :=
    funext fun a => Fin.ext (by
      match a with
      | ⟨0, _⟩ => exact (DotDims.rhsIdx_val_of_single dFeat rfl _ _).trans hk
      | ⟨1, _⟩ => rfl)
  rw [el, er]

/-- A product of the features with a one-column weight, at node n: the sum over the 64 features. -/
theorem scoreDot_apply (feat : FVec Ideal S1x4096x64 .f32) (w : FVec Ideal S64x1 .f32) (n : Fin 4096) :
    Host.dotGeneral dScore none feat w (ix3 (0 : Fin 1) n (0 : Fin 1))
      = ∑ o : Fin 64, feat (ix3 (0 : Fin 1) n o) * w (ix2 o (0 : Fin 1)) := by
  refine (Ideal.dotGeneral_apply dScore none .single feat w _).trans ?_
  rw [← Equiv.sum_comp (contrEquiv1 dScore 64 rfl rfl).symm]
  refine Finset.sum_congr rfl fun k _ => ?_
  have hk := contrEquiv1_symm_val dScore 64 rfl rfl k
  have el : dScore.lhsIdx (ix3 (0 : Fin 1) n (0 : Fin 1)) ((contrEquiv1 dScore 64 rfl rfl).symm k) = ix3 (0 : Fin 1) n k :=
    funext fun a => Fin.ext (by
      match a with
      | ⟨0, _⟩ => rfl
      | ⟨1, _⟩ => rfl
      | ⟨2, _⟩ => exact (DotDims.lhsIdx_val_of_single dScore rfl _ _).trans hk)
  have er : dScore.rhsIdx (ix3 (0 : Fin 1) n (0 : Fin 1)) ((contrEquiv1 dScore 64 rfl rfl).symm k) = ix2 k (0 : Fin 1) :=
    funext fun a => Fin.ext (by
      match a with
      | ⟨0, _⟩ => exact (DotDims.rhsIdx_val_of_single dScore rfl _ _).trans hk
      | ⟨1, _⟩ => rfl)
  rw [el, er]

/-- A one-entry array repeated along the nodes reads its one entry. -/
theorem alongNodes1_apply (b : FVec Ideal S1 .f32) (n : Fin 4096) :
    broadcastInDim S1x4096x1 ![0, 1, 2] bcast_S1x1x1_S1x4096x1_0_1_2 (broadcastInDim S1x1x1 ![2] bcast_S1_S1x1x1_2 b)
      (ix3 (0 : Fin 1) n (0 : Fin 1)) = b (ix1 (0 : Fin 1)) :=
  (broadcastInDim_apply _ _ _ (ix3 (0 : Fin 1) n (0 : Fin 1)) (ix3 (0 : Fin 1) (0 : Fin 1) (0 : Fin 1)) (fun a => by
      match a with
      | ⟨0, _⟩ => rfl
      | ⟨1, _⟩ => rfl
      | ⟨2, _⟩ => rfl)).trans
    (broadcastInDim_apply _ _ _ (ix3 (0 : Fin 1) (0 : Fin 1) (0 : Fin 1)) (ix1 (0 : Fin 1)) (fun a => by
      match a with
      | ⟨0, _⟩ => rfl))

/-- A score at node n. -/
theorem stScore_apply (feat : FVec Ideal S1x4096x64 .f32) (w : FVec Ideal S64x1 .f32) (b : FVec Ideal S1 .f32) (n : Fin 4096) :
    stScore feat w b (ix3 (0 : Fin 1) n (0 : Fin 1))
      = (∑ o : Fin 64, feat (ix3 (0 : Fin 1) n o) * w (ix2 o (0 : Fin 1))) + b (ix1 (0 : Fin 1)) := by
  unfold stScore
  rw [addf_apply, alongNodes1_apply]
  exact congrArg (· + b (ix1 (0 : Fin 1))) (scoreDot_apply feat w n)

/-- The pairwise sum at (r, c): the first score at r plus the second at c. -/
theorem stPair_apply (s d : FVec Ideal S1x4096x1 .f32) (r c : Fin 4096) :
    stPair s d (ix3 (0 : Fin 1) r c) = s (ix3 (0 : Fin 1) r (0 : Fin 1)) + d (ix3 (0 : Fin 1) c (0 : Fin 1)) := by
  unfold stPair
  rw [addf_apply]
  refine congrArg₂ (· + ·) ?_ ?_
  · exact broadcastInDim_apply _ _ _ (ix3 (0 : Fin 1) r c) (ix3 (0 : Fin 1) r (0 : Fin 1)) (fun a => by
      match a with
      | ⟨0, _⟩ => rfl
      | ⟨1, _⟩ => rfl
      | ⟨2, _⟩ => rfl)
  · refine (broadcastInDim_apply _ _ _ (ix3 (0 : Fin 1) r c) (ix3 (0 : Fin 1) (0 : Fin 1) c) (fun a => by
      match a with
      | ⟨0, _⟩ => rfl
      | ⟨1, _⟩ => rfl
      | ⟨2, _⟩ => rfl)).trans ?_
    exact transpose_ix3_021_apply d _ (0 : Fin 1) (0 : Fin 1) c

/-- The rectifier at an entry. -/
theorem stLeaky_apply (l : FVec Ideal S1x4096x4096 .f32) (i : S1x4096x4096.Idx) :
    stLeaky l i = Scalar.select (Ideal.cmp .oge (l i) 0) (l i) (GatSpec.slopeBits * l i) := by
  unfold stLeaky
  rw [select_apply, cmpf_apply, mulf_apply, splat_apply, splat_apply, Ideal.cmpf_def, Ideal.ofBits_zero_f32]

/-- The reference's logit at (r, c) is the specification's. -/
theorem logit_eq (a : GatSpec.Args) (r c : Fin 4096) :
    stLogit (F := Ideal) (stFeat a.X a.W) a.adj a.W1 a.b1 a.W2 a.b2 (ix3 (0 : Fin 1) r c) = GatSpec.logitR a r c := by
  unfold stLogit
  rw [addf_apply, stLeaky_apply, stPair_apply, stScore_apply, stScore_apply]
  simp only [stFeat_apply]
  rfl

end Cert.RefSide

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.RefReadSoftmax.lean ====
/-
  The row-wise softmax of the reference read entry by entry, at the extended reals.

  The host's reduction with a maximum body along the last axis is, at row r, the fold of max over the row from the
  initial value; its reduction with an add body is the initial value plus the sum of the row; a value per row
  repeated along the columns reads the row's value. So, for logits l, the quotient at (r, c) is the exponential of
  l(r, c) less the row's maximum, divided by zero plus the sum over the row of those exponentials.
-/
import proofs.«128342_g53772990545978_cont_sun_c4_684_8_alg».proof.Proof.RefTerm
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«128342_g53772990545978_cont_sun_c4_684_8_alg».proof.Proof.RefReadBasics
import proofs.«128342_g53772990545978_cont_sun_c4_684_8_alg».proof.Proof.LibAxisLayout

noncomputable section

open scoped BigOperators

namespace Cert.RefSide

open Cert.ReferenceIdeal Cert.ReferenceIdeal.Gen Idealize.ShloMosaic Idealize.ShloMosaic.ValueIdx

/-- The last axis of the logits can be reduced away. -/
theorem redLast : S1x4096x4096.Reduces [2] S1x4096 := by decide

/-- The host's maximum along the last axis, at row r: the fold of max over the row from minus infinity. -/
theorem rowMaxFold_apply (l : FVec Ideal S1x4096x4096 .f32) (r : Fin 4096) :
    Host.reduce (FloatOps.maximumf (F := Ideal) (φ := .f32)) l (constant (F := Ideal) S_ .f32 0xFF800000#32)
        reducesTo_S1x4096x4096_S1x4096_d2 h_S_ (ix2 (0 : Fin 1) r)
      = (Finset.univ : Finset (Fin 4096)).fold max GatSpec.ninfBits (fun k => l (ix3 (0 : Fin 1) r k)) :=
  (Host.reduce_eq_fold_single (FloatOps.maximumf (F := Ideal) (φ := .f32)) l (constant (F := Ideal) S_ .f32 0xFF800000#32)
      reducesTo_S1x4096x4096_S1x4096_d2 redLast h_S_ (ix2 (0 : Fin 1) r)).trans
    (congrArg ((Finset.univ : Finset (Fin 4096)).fold max GatSpec.ninfBits)
      (funext fun k => congrArg l (AxisLayout.lift_last redLast (0 : Fin 1) r k)))

/-- The row maximum at row r. -/
theorem stRowMax_apply (l : FVec Ideal S1x4096x4096 .f32) (r : Fin 4096) :
    stRowMax l (ix2 (0 : Fin 1) r)
      = max GatSpec.ninfBits ((Finset.univ : Finset (Fin 4096)).fold max GatSpec.ninfBits (fun k => l (ix3 (0 : Fin 1) r k))) := by
  unfold stRowMax
  rw [maximumf_apply]
  exact congrArg₂ max (splat_apply _ _ _ _) (rowMaxFold_apply l r)

/-- A value per row repeated along the columns reads the row's value. -/
theorem stAlong_apply (v : FVec Ideal S1x4096 .f32) (r c : Fin 4096) : stAlong v (ix3 (0 : Fin 1) r c) = v (ix2 (0 : Fin 1) r) := by
  unfold stAlong
  exact (broadcastInDim_apply _ _ _ (ix3 (0 : Fin 1) r c) (ix3 (0 : Fin 1) r (0 : Fin 1)) (fun a => by
      match a with
      | ⟨0, _⟩ => rfl
      | ⟨1, _⟩ => rfl
      | ⟨2, _⟩ => rfl)).trans
    (broadcastInDim_apply _ _ _ (ix3 (0 : Fin 1) r (0 : Fin 1)) (ix2 (0 : Fin 1) r) (fun a => by
      match a with
      | ⟨0, _⟩ => rfl
      | ⟨1, _⟩ => rfl))

/-- The shifted exponential at (r, c). -/
theorem stExp_apply (l : FVec Ideal S1x4096x4096 .f32) (r c : Fin 4096) :
    stExp l (ix3 (0 : Fin 1) r c) = Ideal.exp (l (ix3 (0 : Fin 1) r c) - stRowMax l (ix2 (0 : Fin 1) r)) := by
  unfold stExp
  rw [hostExp_apply, subf_apply, stAlong_apply]

/-- The row sum at row r: zero plus the sum of the row. -/
theorem stRowSum_apply (e : FVec Ideal S1x4096x4096 .f32) (r : Fin 4096) :
    stRowSum e (ix2 (0 : Fin 1) r) = 0 + ∑ k : Fin 4096, e (ix3 (0 : Fin 1) r k) := by
  unfold stRowSum
  refine (Ideal.hostReduceAdd_single reducesTo_S1x4096x4096_S1x4096_d2 redLast e (Ideal.ofBits .f32 0x00000000#32) (ix2 (0 : Fin 1) r)).trans ?_
  rw [Ideal.ofBits_zero_f32]
  exact congrArg (0 + ·) (Finset.sum_congr rfl fun k _ => congrArg e (AxisLayout.lift_last redLast (0 : Fin 1) r k))

/-- The quotient at (r, c). -/
theorem stSoft_apply (e : FVec Ideal S1x4096x4096 .f32) (r c : Fin 4096) :
    stSoft e (ix3 (0 : Fin 1) r c) = Ideal.div (e (ix3 (0 : Fin 1) r c)) (stRowSum e (ix2 (0 : Fin 1) r)) := by
  unfold stSoft
  rw [hostDivf_apply, stAlong_apply]

/-- The softmax of logits that read L r c at (r, c). -/
theorem soft_of_logit (l : FVec Ideal S1x4096x4096 .f32) (L : Fin 4096 → Fin 4096 → EReal)
    (hl : ∀ r c, l (ix3 (0 : Fin 1) r c) = L r c) (r c : Fin 4096) :
    stSoft (stExp l) (ix3 (0 : Fin 1) r c)
      = Ideal.div
          (Ideal.exp (L r c - max GatSpec.ninfBits ((Finset.univ : Finset (Fin 4096)).fold max GatSpec.ninfBits (fun k => L r k))))
          (0 + ∑ k : Fin 4096,
            Ideal.exp (L r k - max GatSpec.ninfBits ((Finset.univ : Finset (Fin 4096)).fold max GatSpec.ninfBits (fun k => L r k)))) := by
  rw [stSoft_apply, stRowSum_apply]
  simp only [stExp_apply, stRowMax_apply, hl]

end Cert.RefSide

end
-- ==== Proof.RefReadMix.lean ====
/-
  The weighted sum of features plus bias, read entry by entry at the extended reals: the product of the coefficients
  with the features, batched over the one leading position and contracted over the nodes, is at (r, o) the sum over
  the nodes k of coefficient (r, k) times feature (k, o); the bias, repeated along the nodes, reads its entry o.
-/
import proofs.«128342_g53772990545978_cont_sun_c4_684_8_alg».proof.Proof.RefTerm
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefSide

open Cert.ReferenceIdeal Cert.ReferenceIdeal.Gen Idealize.ShloMosaic Idealize.ShloMosaic.ValueIdx

/-- The dimension numbers of the product of the coefficients with the features. -/
abbrev dMix := dot_S1x4096x4096_S1x4096x64_S1x4096x64_2_1_1_2_0_0

/-- The product at (r, o): the sum over the 4096 nodes. -/
theorem mixDot_apply (p : FVec Ideal S1x4096x4096 .f32) (feat : FVec Ideal S1x4096x64 .f32) (r : Fin 4096) (o : Fin 64) :
    Host.dotGeneral dMix none p feat (ix3 (0 : Fin 1) r o) = ∑ k : Fin 4096, p (ix3 (0 : Fin 1) r k) * feat (ix3 (0 : Fin 1) k o) := by
  refine (Ideal.dotGeneral_apply dMix none .single p feat _).trans ?_
  rw [← Equiv.sum_comp (contrEquiv1 dMix 4096 rfl rfl).symm]
  refine Finset.sum_congr rfl fun k _ => ?_
  have hk := contrEquiv1_symm_val dMix 4096 rfl rfl k
  have el : dMix.lhsIdx (ix3 (0 : Fin 1) r o) ((contrEquiv1 dMix 4096 rfl rfl).symm k) = ix3 (0 : Fin 1) r k :=
    funext fun a => Fin.ext (by
      match a with
      | ⟨0, _⟩ => rfl
      | ⟨1, _⟩ => rfl
      | ⟨2, _⟩ => exact (DotDims.lhsIdx_val_of_single dMix rfl _ _).trans hk)
  have er : dMix.rhsIdx (ix3 (0 : Fin 1) r o) ((contrEquiv1 dMix 4096 rfl rfl).symm k) = ix3 (0 : Fin 1) k o :=
    funext fun a => Fin.ext (by
      match a with
      | ⟨0, _⟩ => rfl
      | ⟨1, _⟩ => exact (DotDims.rhsIdx_val_of_single dMix rfl _ _).trans hk
      | ⟨2, _⟩ => rfl)
  rw [el, er]

/-- The bias repeated along the nodes reads its entry o. -/
theorem alongNodes64_apply (bias : FVec Ideal S64 .f32) (r : Fin 4096) (o : Fin 64) :
    broadcastInDim S1x4096x64 ![0, 1, 2] bcast_S1x1x64_S1x4096x64_0_1_2 (broadcastInDim S1x1x64 ![2] bcast_S64_S1x1x64_2 bias)
      (ix3 (0 : Fin 1) r o) = bias (ix1 o) :=
  (broadcastInDim_apply _ _ _ (ix3 (0 : Fin 1) r o) (ix3 (0 : Fin 1) (0 : Fin 1) o) (fun a => by
      match a with
      | ⟨0, _⟩ => rfl
      | ⟨1, _⟩ => rfl
      | ⟨2, _⟩ => rfl)).trans
    (broadcastInDim_apply _ _ _ (ix3 (0 : Fin 1) (0 : Fin 1) o) (ix1 o) (fun a => by
      match a with
      | ⟨0, _⟩ => rfl))

/-- The row before the two units, at (r, o). -/
theorem stPre_apply (p : FVec Ideal S1x4096x4096 .f32) (feat : FVec Ideal S1x4096x64 .f32) (bias : FVec Ideal S64 .f32)
    (r : Fin 4096) (o : Fin 64) :
    stPre p feat bias (ix3 (0 : Fin 1) r o) = (∑ k : Fin 4096, p (ix3 (0 : Fin 1) r k) * feat (ix3 (0 : Fin 1) k o)) + bias (ix1 o) := by
  unfold stPre
  rw [addf_apply, alongNodes64_apply]
  exact congrArg (· + bias (ix1 o)) (mixDot_apply p feat r o)

end Cert.RefSide

end
-- ==== Proof.RefReadUnit.lean ====
/-
  The exponential-linear unit of the reference, on an array of any shape, read at an entry: the specification's unit
  of that entry. And the array of three axes with a leading axis of extent one, viewed with two axes, reads at (r, o)
  its entry (0, r, o).
-/
import proofs.«128342_g53772990545978_cont_sun_c4_684_8_alg».proof.Proof.RefTerm
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«128342_g53772990545978_cont_sun_c4_684_8_alg».proof.Proof.RefReadBasics

noncomputable section

open scoped BigOperators

namespace Cert.RefSide

open Cert.ReferenceIdeal Cert.ReferenceIdeal.Gen Idealize.ShloMosaic Idealize.ShloMosaic.ValueIdx

/-- The unit at an entry. -/
theorem stElu_apply (S : Shape) (hb : S_.BroadcastsInDim S (![] : Fin 0 → Fin S.rank)) (x : FVec Ideal S .f32) (i : S.Idx) :
    stElu S hb x i = GatSpec.eluR (x i) := by
  unfold stElu
  simp only [select_apply, cmpf_apply, mulf_apply, hostExpm1_apply, splat_apply, Ideal.cmpf_def, Ideal.ofBits_zero_f32]
  rfl

/-- The change from three axes to two, at (r, o). -/
theorem stFlat_apply (y : FVec Ideal S1x4096x64 .f32) (r : Fin 4096) (o : Fin 64) :
    stFlat y (ix2 r o) = y (ix3 (0 : Fin 1) r o) := by
  unfold stFlat
  exact shapeCast_1ab_ab_apply y _ r o

end Cert.RefSide

end
-- ==== Proof.RefRead.lean ====
/-
  The reference's result is the specification's array. Read at (r, o), the whole term is two exponential-linear units
  around the weighted sum of features plus bias; the weights are the softmax of the logits, and the logits, the
  features and the bias read as the specification spells them. So every entry is the specification's entry, and the
  two arrays are equal.
-/
import proofs.«128342_g53772990545978_cont_sun_c4_684_8_alg».proof.Proof.RefTerm
import proofs.«128342_g53772990545978_cont_sun_c4_684_8_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«128342_g53772990545978_cont_sun_c4_684_8_alg».proof.Proof.RefReadLogit
import proofs.«128342_g53772990545978_cont_sun_c4_684_8_alg».proof.Proof.RefReadSoftmax
import proofs.«128342_g53772990545978_cont_sun_c4_684_8_alg».proof.Proof.RefReadMix
import proofs.«128342_g53772990545978_cont_sun_c4_684_8_alg».proof.Proof.RefReadUnit

noncomputable section

open scoped BigOperators

namespace Cert.RefSide

open Cert.ReferenceIdeal Cert.ReferenceIdeal.Gen Idealize.ShloMosaic Idealize.ShloMosaic.ValueIdx

/-- The reference's result at (r, o) is the specification's. -/
theorem refTerm_apply (a : GatSpec.Args) (r : Fin 4096) (o : Fin 64) :
    refTerm (F := Ideal) a.X a.adj a.W a.W1 a.b1 a.W2 a.b2 a.bias (ix2 r o) = GatSpec.refOut a r o := by
  unfold refTerm
  rw [stElu_apply, stFlat_apply, stElu_apply, stPre_apply]
  simp only [soft_of_logit _ (GatSpec.logitR a) (logit_eq a), stFeat_apply]
  rfl

/-- The reference's result is the specification's array. -/
theorem refTerm_eq (a : GatSpec.Args) :
    refTerm (F := Ideal) a.X a.adj a.W a.W1 a.b1 a.W2 a.b2 a.bias = GatSpec.refArr a := by
  funext j
  obtain ⟨r, o, rfl⟩ : ∃ (r : Fin 4096) (o : Fin 64), j = ix2 r o := ⟨j 0, j 1, eq_ix2 j⟩
  exact (refTerm_apply a r o).trans (GatSpec.refArr_ix2 a r o).symm

end Cert.RefSide

end
-- ==== Proof.ArgsOf.lean ====
/-
  The eight argument arrays of a launch memory, gathered as the specification's record: once for the idealized
  kernel's memory, once for the idealized reference's. Argument k of either program is the k-th array of the layer
  (X, the adjacency, the shared weight, the first score weight and bias, the second score weight and bias, the output bias).
-/
import proofs.«128342_g53772990545978_cont_sun_c4_684_8_alg».proof.Defs
import proofs.«128342_g53772990545978_cont_sun_c4_684_8_alg».proof.Proof.Spec

noncomputable section

open Idealize.ShloMosaic Idealize.SL.Sem

namespace Cert.KerSide

open Cert.KernelIdeal

/-- The kernel program's arguments on device `c`. -/
def argsOf (m : (ℓ : Loc nD τ sig) → Buf (Elt Ideal) ℓ) (c : Dev nD) : Cert.GatSpec.Args where
  X := m ((c.tc : Thread nD τ).loc main_arg0)
  adj := m ((c.tc : Thread nD τ).loc main_arg1)
  W := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  bias := m ((c.tc : Thread nD τ).loc main_arg7)

end Cert.KerSide

namespace Cert.RefSide

open Cert.ReferenceIdeal

/-- The reference program's arguments on device `c`. -/
def argsOf (m : (ℓ : Loc nD τ sig) → Buf (Elt Ideal) ℓ) (c : Dev nD) : Cert.GatSpec.Args where
  X := m ((c.tc : Thread nD τ).loc main_arg0)
  adj := m ((c.tc : Thread nD τ).loc main_arg1)
  W := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  bias := m ((c.tc : Thread nD τ).loc main_arg7)

end Cert.RefSide

end
-- ==== Proof.RefSide.lean ====
/-
  The run of the reference, stated over the specification: from any memory with zero counters every fair execution
  ends with the result buffer of each device holding the specification's array of that device's eight arguments, and
  the eight arguments unchanged.
-/
import proofs.«128342_g53772990545978_cont_sun_c4_684_8_alg».proof.Proof.RefRead
import proofs.«128342_g53772990545978_cont_sun_c4_684_8_alg».proof.Proof.ArgsOf

noncomputable section

namespace Cert.RefSide

open Idealize.ShloMosaic Idealize.SL.Sem Cert.ReferenceIdeal Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = Cert.GatSpec.refArr (Cert.RefSide.argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h c main_v32).trans ((result_eq (launchContents m c)).trans (refTerm_eq (argsOf m c))),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c)),
        (h c main_arg7).trans (arg7_eq (launchContents m c))⟩)
    (run_main m ρ)

end Cert.RefSide

end
-- ==== Proof.KerPieces.lean ====
/-
  What one grid point of the kernel leaves behind, as values.

  The kernel keeps three tables between grid points: the feature table (the projected features in columns 0..63, a
  column of ones at column 64, zeros after it), the column of source scores and the row of destination scores. The first
  grid point computes and stores all three, then — like every later point — reads a block of 1024 source scores, the
  whole row of destination scores, a block of 1024 rows of the adjacency, the whole feature table and the bias, and
  stores one 1024 × 64 block of the result. Here each stored piece is read back as the pure function of the loaded
  blocks that the body's arithmetic is, for the first point and for a later point alike.
-/
import proofs.«128342_g53772990545978_cont_sun_c4_684_8_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KerSide

open Cert.KernelIdeal Cert.KernelIdeal.Gen

variable {F : FTy → Type} [FloatOps F]

theorem hz2 : (![0, 0] : Fin 2 → Nat) = fun _ => 0 := funext fun a => by fin_cases a <;> rfl

/-- The two stores that fill the feature table: columns 64..127 (a one in column 64, zeros after), then columns 0..63
    (the projected features). -/
abbrev tablePieces (x0 : Vec F S4096x128 .f32) (x2 : Vec F S128x64 .f32) : List (View.Piece (Elt F) S4096x128 .bf16) :=
  [⟨Rect.unit ![0, 64] S4096x64.size inb_S4096x128_S4096x64_0_64, k0_pay4⟩,
   ⟨Rect.unit ![0, 0] S4096x64.size inb_S4096x128_S4096x64_0_0, k0_pay3 x0 x2⟩]

/-- The feature table after the first point, from X and the shared weight. -/
def tableOf (x0 : Vec F S4096x128 .f32) (x2 : Vec F S128x64 .f32) : Vec F S4096x128 .bf16 :=
  View.canon (tablePieces x0 x2)

/-- The column of source scores after the first point. -/
def srcOf (x0 : Vec F S4096x128 .f32) (x2 : Vec F S128x64 .f32) (x3 : Vec F S64x1 .f32) (x4 : Vec F S1x1 .f32) :
    Vec F S4096x1 .f32 := k0_pay5 x0 x2 x3 x4

/-- The row of destination scores after the first point. -/
def dstOf (x0 : Vec F S4096x128 .f32) (x2 : Vec F S128x64 .f32) (x5 : Vec F S1x64 .f32) (x6 : Vec F S1x1 .f32) :
    Vec F S1x4096 .f32 := k0_pay8 (k0_pay6 x0 x2 x5) (k0_pay7 x6)

/-- The result block of the point at grid coordinate `i`, from the three tables, the adjacency block and the bias. -/
def blockOut (i : grid0.Coords) (f1 : Vec F S4096x1 .f32) (f2 : Vec F S1x4096 .f32) (tbl : Vec F S4096x128 .bf16)
    (adjb : Vec F S1024x4096 .f32) (biasb : Vec F S1x64 .f32) : Vec F S1024x64 .f32 :=
  k0_pay1
    (k0_pay9 (View.ld f1 (Rect.unit (k0_off1 i) S1024x1.size (k0_off1_inb i))) f2 adjb tbl biasb)
    (k0_pay10 (View.ld f1 (Rect.unit (k0_off1 i) S1024x1.size (k0_off1_inb i))) f2 adjb tbl biasb)
    (k0_pay11 (View.ld f1 (Rect.unit (k0_off1 i) S1024x1.size (k0_off1_inb i))) f2 adjb tbl biasb)
    (FloatOps.ofBits .f32 1065353216#32)

/-- The two stores of the feature table cover it. -/
theorem tablePieces_cover (x0 : Vec F S4096x128 .f32) (x2 : Vec F S128x64 .f32) (y : S4096x128.Idx) :
    ∃ pc ∈ tablePieces x0 x2, y ∈ pc.1.set :=
  View.cover_of_tiledL (tablePieces x0 x2) S4096x64.size (by sl_kernel_rfl) y

/-- The first point leaves the source scores in their column. -/
theorem src_first (c : Dev nD) (i : grid0.Coords) (arg1 : Memref sig .tc .vmem S4096x128 .f32) (harg1 : arg1.IsWhole) (arg2 : Memref sig .tc .vmem S1024x4096 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S4096x128 .bf16) (harg10 : arg10.IsWhole) (arg11 : Memref sig .tc .vmem S4096x1 .f32) (harg11 : arg11.IsWhole) (arg12 : Memref sig .tc .vmem S1x4096 .f32) (harg12 : arg12.IsWhole) (hc : cond0_0 i) (x0 : Vec F S4096x128 .f32) (x1 : Vec F S1024x4096 .f32) (x2 : Vec F S128x64 .f32) (x3 : Vec F S64x1 .f32) (x4 : Vec F S1x1 .f32) (x5 : Vec F S1x64 .f32) (x6 : Vec F S1x1 .f32) (x7 : Vec F S1x64 .f32) :
    sout0_A_1 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 = srcOf x0 x2 x3 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [View.canon_unit_zero (S := S4096x1) hz2]
  simp only [View.readAt_eq_ld, harg1.read_unread, harg3.read_unread, harg4.read_unread, harg5.read_unread,
    View.ld_unit_zero (S := S4096x128) hz2, View.ld_unit_zero (S := S128x64) hz2, View.ld_unit_zero (S := S64x1) hz2,
    View.ld_unit_zero (S := S1x1) hz2]
  rfl

/-- The first point leaves the destination scores in their row. -/
theorem dst_first (c : Dev nD) (i : grid0.Coords) (arg1 : Memref sig .tc .vmem S4096x128 .f32) (harg1 : arg1.IsWhole) (arg2 : Memref sig .tc .vmem S1024x4096 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S4096x128 .bf16) (harg10 : arg10.IsWhole) (arg11 : Memref sig .tc .vmem S4096x1 .f32) (harg11 : arg11.IsWhole) (arg12 : Memref sig .tc .vmem S1x4096 .f32) (harg12 : arg12.IsWhole) (hc : cond0_0 i) (x0 : Vec F S4096x128 .f32) (x1 : Vec F S1024x4096 .f32) (x2 : Vec F S128x64 .f32) (x3 : Vec F S64x1 .f32) (x4 : Vec F S1x1 .f32) (x5 : Vec F S1x64 .f32) (x6 : Vec F S1x1 .f32) (x7 : Vec F S1x64 .f32) :
    sout0_A_2 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 = dstOf x0 x2 x5 x6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [View.canon_unit_zero (S := S1x4096) hz2]
  simp only [View.readAt_eq_ld, harg1.read_unread, harg3.read_unread, harg6.read_unread, harg7.read_unread,
    View.ld_unit_zero (S := S4096x128) hz2, View.ld_unit_zero (S := S128x64) hz2, View.ld_unit_zero (S := S1x64) hz2,
    View.ld_unit_zero (S := S1x1) hz2]
  rfl

/-- The first point leaves the feature table. -/
theorem table_first (c : Dev nD) (i : grid0.Coords) (arg1 : Memref sig .tc .vmem S4096x128 .f32) (harg1 : arg1.IsWhole) (arg2 : Memref sig .tc .vmem S1024x4096 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S4096x128 .bf16) (harg10 : arg10.IsWhole) (arg11 : Memref sig .tc .vmem S4096x1 .f32) (harg11 : arg11.IsWhole) (arg12 : Memref sig .tc .vmem S1x4096 .f32) (harg12 : arg12.IsWhole) (hc : cond0_0 i) (x0 : Vec F S4096x128 .f32) (x1 : Vec F S1024x4096 .f32) (x2 : Vec F S128x64 .f32) (x3 : Vec F S64x1 .f32) (x4 : Vec F S1x1 .f32) (x5 : Vec F S1x64 .f32) (x6 : Vec F S1x1 .f32) (x7 : Vec F S1x64 .f32) :
    sout0_A_0 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 = tableOf x0 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  simp only [View.readAt_eq_ld, harg1.read_unread, harg3.read_unread,
    View.ld_unit_zero (S := S4096x128) hz2, View.ld_unit_zero (S := S128x64) hz2]
  rfl

end Cert.KerSide

end
-- ==== Proof.KerBlock.lean ====
/-
  The block of the result that one grid point stores, as the same function of the three tables at the first point
  (where the body has just stored the tables and reads them back) and at a later point (where it finds them as the
  point before left them).
-/
import proofs.«128342_g53772990545978_cont_sun_c4_684_8_alg».proof.Proof.KerPieces

set_option maxRecDepth 16384

noncomputable section

open Idealize.ShloMosaic Idealize.ShloMosaic.TcCoe Idealize.SL.Sem
open Idealize.ShloMosaic.Pipeline (Dat)

namespace Cert.KerSide

open Cert.KernelIdeal Cert.KernelIdeal.Gen

variable {F : FTy → Type} [FloatOps F]

/-- A later point's block: the tables as the point before left them. -/
theorem out_later (c : Dev nD) (i : grid0.Coords) (arg1 : Memref sig .tc .vmem S4096x128 .f32) (harg1 : arg1.IsWhole) (arg2 : Memref sig .tc .vmem S1024x4096 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S4096x128 .bf16) (harg10 : arg10.IsWhole) (arg11 : Memref sig .tc .vmem S4096x1 .f32) (harg11 : arg11.IsWhole) (arg12 : Memref sig .tc .vmem S1x4096 .f32) (harg12 : arg12.IsWhole) (hc : ¬cond0_0 i) (x0 : Vec F S4096x128 .f32) (x1 : Vec F S1024x4096 .f32) (x2 : Vec F S128x64 .f32) (x3 : Vec F S64x1 .f32) (x4 : Vec F S1x1 .f32) (x5 : Vec F S1x64 .f32) (x6 : Vec F S1x1 .f32) (x7 : Vec F S1x64 .f32) (xs0 : Vec F S4096x128 .bf16) (xs1 : Vec F S4096x1 .f32) (xs2 : Vec F S1x4096 .f32) :
    out0_B_8 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xs0 xs1 xs2 = blockOut i xs1 xs2 xs0 x1 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xs0 xs1 xs2)]
  unfold kernelRun0_B
  dsimp only
  sl_unfold_words
  rw [View.canon_unit_zero (S := S1024x64) hz2]
  simp only [View.readAt_eq_ld, harg2.read_unread, harg8.read_unread, harg10.read_unread, harg11.read_unread,
    harg12.read_unread, View.ld_unit_zero (S := S1024x4096) hz2, View.ld_unit_zero (S := S1x64) hz2,
    View.ld_unit_zero (S := S4096x128) hz2, View.ld_unit_zero (S := S1x4096) hz2]
  rfl

/-- The first point's block: the tables it has just stored, read back. -/
theorem out_first (c : Dev nD) (i : grid0.Coords) (arg1 : Memref sig .tc .vmem S4096x128 .f32) (harg1 : arg1.IsWhole) (arg2 : Memref sig .tc .vmem S1024x4096 .f32) (harg2 : arg2.IsWhole) (arg3 : Memref sig .tc .vmem S128x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S1x64 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S1024x64 .f32) (harg9 : arg9.IsWhole) (arg10 : Memref sig .tc .vmem S4096x128 .bf16) (harg10 : arg10.IsWhole) (arg11 : Memref sig .tc .vmem S4096x1 .f32) (harg11 : arg11.IsWhole) (arg12 : Memref sig .tc .vmem S1x4096 .f32) (harg12 : arg12.IsWhole) (hc : cond0_0 i) (x0 : Vec F S4096x128 .f32) (x1 : Vec F S1024x4096 .f32) (x2 : Vec F S128x64 .f32) (x3 : Vec F S64x1 .f32) (x4 : Vec F S1x1 .f32) (x5 : Vec F S1x64 .f32) (x6 : Vec F S1x1 .f32) (x7 : Vec F S1x64 .f32) :
    out0_A_8 c i arg1 harg1 arg2 harg2 arg3 harg3 arg4 harg4 arg5 harg5 arg6 harg6 arg7 harg7 arg8 harg8 arg9 harg9 arg10 harg10 arg11 harg11 arg12 harg12 hc x0 x1 x2 x3 x4 x5 x6 x7
      = blockOut i (srcOf x0 x2 x3 x4) (dstOf x0 x2 x5 x6) (tableOf x0 x2) x1 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [View.canon_unit_zero (S := S1024x64) hz2]
  simp only [View.readAt_eq_ld, harg1.read_unread, harg2.read_unread, harg3.read_unread, harg4.read_unread, harg5.read_unread,
    harg6.read_unread, harg7.read_unread, harg8.read_unread,
    View.ld_unit_zero (S := S1024x4096) hz2, View.ld_unit_zero (S := S1x64) hz2,
    View.ld_unit_zero (S := S4096x128) hz2, View.ld_unit_zero (S := S128x64) hz2, View.ld_unit_zero (S := S64x1) hz2,
    View.ld_unit_zero (S := S1x1) hz2]
  rw [View.read_writes_junk_eq_canon, View.canon_unit_zero (S := S4096x1) hz2,
    View.readCov_unit_zero (S := S1x4096) _ hz2,
    View.readCov_eq_canon_ld _ _ _ (tablePieces_cover x0 x2), View.ld_unit_zero (S := S4096x128) hz2]
  rfl

end Cert.KerSide

end
-- ==== Proof.KerInv.lean ====
/-
  The three tables never change after the first grid point, and every point's block of the result is one function of
  them.

  After the first point the feature table, the source scores and the destination scores are what that point computed
  from X, the shared weight, the two score weights and the two score biases; a later point stores nothing into them,
  so by induction on the point they are the same after every point. Hence the block of the result stored at any point
  is the block function of those three tables, of the point's block of the adjacency and of the bias.
-/
import proofs.«128342_g53772990545978_cont_sun_c4_684_8_alg».proof.Proof.KerBlock

noncomputable section

open Idealize.ShloMosaic Idealize.ShloMosaic.TcCoe Idealize.SL.Sem
open Idealize.ShloMosaic.Pipeline (Dat)

namespace Cert.KerSide

open Cert.KernelIdeal Cert.KernelIdeal.Gen

variable {F : FTy → Type} [FloatOps F]
variable (m : (ℓ : Loc nD τ sig) → Buf (Elt F) ℓ)

/-- The first grid point. -/
def P0 : Fin cfg0.N := ⟨0, by rw [show cfg0.N = 4 from N_0]; decide⟩

/-- The feature table the first point computes. -/
def tbl (c : Dev nD) : Vec F S4096x128 .bf16 := tableOf (iblk m c 0 P0) (iblk m c 2 P0)

/-- The source scores the first point computes. -/
def srcT (c : Dev nD) : Vec F S4096x1 .f32 := srcOf (iblk m c 0 P0) (iblk m c 2 P0) (iblk m c 3 P0) (iblk m c 4 P0)

/-- The destination scores the first point computes. -/
def dstT (c : Dev nD) : Vec F S1x4096 .f32 := dstOf (iblk m c 0 P0) (iblk m c 2 P0) (iblk m c 5 P0) (iblk m c 6 P0)

/-- After every point the three tables are the first point's. -/
theorem tables_at (c : Dev nD) : ∀ (n : ℕ) (h : n < cfg0.N),
    (outsAt0 m c n h).2.1 = tbl m c ∧ (outsAt0 m c n h).2.2.1 = srcT m c ∧ (outsAt0 m c n h).2.2.2 = dstT m c
  | 0, h => by
    rw [outsAt0_A m c ⟨0, h⟩ rfl]
    dsimp only
    rw [table_first, src_first, dst_first]
    exact ⟨rfl, rfl, rfl⟩
  | n + 1, h => by
    have hN : cfg0.N = 4 := N_0
    have hB : ¬(⟨n + 1, h⟩ : Fin cfg0.N).val % 4 = 0 := by dsimp only; omega
    rw [outsAt0_B m c ⟨n + 1, h⟩ hB]
    exact tables_at c n (by omega)

/-- The block of the result stored at point `t`. -/
theorem block_at (c : Dev nD) (t : Fin cfg0.N) :
    (outsAt0 m c t.val t.isLt).1
      = blockOut (grid0.coords t) (srcT m c) (dstT m c) (tbl m c) (iblk m c 1 t) (iblk m c 7 t) := by
  have hN : cfg0.N = 4 := N_0
  by_cases h0 : t.val % 4 = 0
  · obtain rfl : t = P0 := Fin.ext (by have := t.isLt; show t.val = 0; omega)
    rw [outsAt0_A m c P0 h0]
    dsimp only
    rw [out_first]
    rfl
  · rw [outsAt0_B m c t h0]
    dsimp only
    rw [out_later]
    obtain ⟨e0, e1, e2⟩ := tables_at m c (t.val - 1) (by have := t.isLt; omega)
    rw [e0, e1, e2]

end Cert.KerSide

end
-- ==== Proof.KerInputs.lean ====
/-
  The kernel's input blocks, read at an index, as entries of the eight arguments.

  Before the launch six arguments are re-laid with the same entries in the same row-major order: the node features and
  the adjacency lose their leading unit axis, the two score biases become 1 × 1 arrays, the second score weight (a
  column of 64) and the output bias (a vector of 64) become rows. The launch then reads every array whole at each of
  the four grid points, except the adjacency, of which point t reads the 1024 rows from 1024·t on. A block's
  coordinate on an axis is the block index times the block's extent plus the coordinate inside the block; the block
  indices are decided once over the four points.
-/
import proofs.«128342_g53772990545978_cont_sun_c4_684_8_alg».proof.Proof.ArgsOf
import proofs.«128342_g53772990545978_cont_sun_c4_684_8_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KerSide

open Idealize.ShloMosaic Idealize.SL.Sem
open Cert.KernelIdeal Cert.KernelIdeal.Gen Idealize.ShloMosaic.ValueIdx

variable (m : (ℓ : Loc nD τ sig) → Buf (Elt Ideal) ℓ) (c : Dev nD) (t : Fin cfg0.N)

/-! ## The arrays the host re-laid before the launch -/

/-- The node features with the leading unit axis dropped. -/
theorem V_v0 : (V m c main_call0_v0 : S4096x128.Idx → EReal)
    = shapeCast S4096x128 (m ((c.tc : Thread nD τ).loc main_arg0)) shapeCasts_S1x4096x128_S4096x128 := by
  dsimp only [Gen.V, Gen.hostOps0]
  after_results
  rfl

/-- The adjacency with the leading unit axis dropped. -/
theorem V_v1 : (V m c main_call0_v1 : S4096x4096.Idx → EReal)
    = shapeCast S4096x4096 (m ((c.tc : Thread nD τ).loc main_arg1)) shapeCasts_S1x4096x4096_S4096x4096 := by
  dsimp only [Gen.V, Gen.hostOps0]
  after_results
  rfl

/-- The second score weight, a column of 64 entries laid as a row. -/
theorem V_v2 : (V m c main_call0_v2 : S1x64.Idx → EReal)
    = shapeCast S1x64 (m ((c.tc : Thread nD τ).loc main_arg5)) shapeCasts_S64x1_S1x64 := by
  dsimp only [Gen.V, Gen.hostOps0]
  after_results
  rfl

/-- The first score bias as a 1 × 1 array. -/
theorem V_v3 : (V m c main_call0_v3 : S1x1.Idx → EReal)
    = shapeCast S1x1 (m ((c.tc : Thread nD τ).loc main_arg4)) shapeCasts_S1_S1x1 := by
  dsimp only [Gen.V, Gen.hostOps0]
  after_results
  rfl

/-- The second score bias as a 1 × 1 array. -/
theorem V_v4 : (V m c main_call0_v4 : S1x1.Idx → EReal)
    = shapeCast S1x1 (m ((c.tc : Thread nD τ).loc main_arg6)) shapeCasts_S1_S1x1 := by
  dsimp only [Gen.V, Gen.hostOps0]
  after_results
  rfl

/-- The output bias as a row. -/
theorem V_v5 : (V m c main_call0_v5 : S1x64.Idx → EReal)
    = shapeCast S1x64 (m ((c.tc : Thread nD τ).loc main_arg7)) shapeCasts_S64_S1x64 := by
  dsimp only [Gen.V, Gen.hostOps0]
  after_results
  rfl

/-! ## Where each window's block sits -/

/-- The block indices over the grid: every input window stays at block (0, 0), except the adjacency's, whose row
    block is the grid point. -/
theorem idx_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## The blocks read at an index -/

/-- The features' block is the whole array: entry (n, i) is X (0, n, i). -/
theorem blk_X (n : Fin 4096) (i : Fin 128) :
    (iblk m c 0 t : Vec Ideal S4096x128 .f32) (ix2 n i) = (argsOf m c).X (ix3 (0 : Fin 1) n i) := by
  obtain ⟨⟨e0, e1⟩, -⟩ := idx_facts t
  unfold iblk
  rw [View.read_apply]
  show V m c main_call0_v0 (((cfg0.win 0).blk t).view.emb (ix2 n i)) = _
  have hemb : ((cfg0.win 0).blk t).view.emb (ix2 n i) = (ix2 n i : S4096x128.Idx) := by
    funext a; apply Fin.ext
    match a with
    | ⟨0, _⟩ => show win0_0.index t (0 : Fin 2) * 4096 + 1 * n.val = n.val; rw [e0]; omega
    | ⟨1, _⟩ => show win0_0.index t (1 : Fin 2) * 128 + 1 * i.val = i.val; rw [e1]; omega
  rw [hemb, V_v0]
  exact shapeCast_1ab_ab_apply _ _ n i

/-- The adjacency's block at point t holds rows 1024·t … 1024·t + 1023: entry (p, k) is adj (0, 1024·t + p, k). -/
theorem blk_adj (p : Fin 1024) (k r : Fin 4096) (hr : r.val = 1024 * t.val + p.val) :
    (iblk m c 1 t : Vec Ideal S1024x4096 .f32) (ix2 p k) = (argsOf m c).adj (ix3 (0 : Fin 1) r k) := by
  obtain ⟨-, ⟨e0, e1⟩, -⟩ := idx_facts t
  unfold iblk
  rw [View.read_apply]
  show V m c main_call0_v1 (((cfg0.win 1).blk t).view.emb (ix2 p k)) = _
  have hemb : ((cfg0.win 1).blk t).view.emb (ix2 p k) = (ix2 r k : S4096x4096.Idx) := by
    funext a; apply Fin.ext
    match a with
    | ⟨0, _⟩ => show win0_1.index t (0 : Fin 2) * 1024 + 1 * p.val = r.val; rw [e0, hr]; omega
    | ⟨1, _⟩ => show win0_1.index t (1 : Fin 2) * 4096 + 1 * k.val = k.val; rw [e1]; omega
  rw [hemb, V_v1]
  exact shapeCast_1ab_ab_apply _ _ r k

/-- The shared weight's block is the whole argument. -/
theorem blk_W (i : Fin 128) (o : Fin 64) :
    (iblk m c 2 t : Vec Ideal S128x64 .f32) (ix2 i o) = (argsOf m c).W (ix2 i o) := by
  obtain ⟨-, -, ⟨e0, e1⟩, -⟩ := idx_facts t
  unfold iblk
  rw [View.read_apply]
  show V m c main_arg2 (((cfg0.win 2).blk t).view.emb (ix2 i o)) = _
  have hemb : ((cfg0.win 2).blk t).view.emb (ix2 i o) = (ix2 i o : S128x64.Idx) := by
    funext a; apply Fin.ext
    match a with
    | ⟨0, _⟩ => show win0_2.index t (0 : Fin 2) * 128 + 1 * i.val = i.val; rw [e0]; omega
    | ⟨1, _⟩ => show win0_2.index t (1 : Fin 2) * 64 + 1 * o.val = o.val; rw [e1]; omega
  rw [hemb, V_main_arg2]
  rfl

/-- The first score weight's block is the whole argument. -/
theorem blk_W1 (o : Fin 64) (z : Fin 1) :
    (iblk m c 3 t : Vec Ideal S64x1 .f32) (ix2 o z) = (argsOf m c).W1 (ix2 o z) := by
  obtain ⟨-, -, -, ⟨e0, e1⟩, -⟩ := idx_facts t
  unfold iblk
  rw [View.read_apply]
  show V m c main_arg3 (((cfg0.win 3).blk t).view.emb (ix2 o z)) = _
  have hemb : ((cfg0.win 3).blk t).view.emb (ix2 o z) = (ix2 o z : S64x1.Idx) := by
    funext a; apply Fin.ext
    match a with
    | ⟨0, _⟩ => show win0_3.index t (0 : Fin 2) * 64 + 1 * o.val = o.val; rw [e0]; omega
    | ⟨1, _⟩ => show win0_3.index t (1 : Fin 2) * 1 + 1 * z.val = z.val; rw [e1]; omega
  rw [hemb, V_main_arg3]
  rfl

/-- The first score bias' block: its one entry is b1 (0). -/
theorem blk_b1 (z z' : Fin 1) :
    (iblk m c 4 t : Vec Ideal S1x1 .f32) (ix2 z z') = (argsOf m c).b1 (ix1 (0 : Fin 1)) := by
  obtain ⟨-, -, -, -, ⟨e0, e1⟩, -⟩ := idx_facts t
  unfold iblk
  rw [View.read_apply]
  show V m c main_call0_v3 (((cfg0.win 4).blk t).view.emb (ix2 z z')) = _
  have hemb : ((cfg0.win 4).blk t).view.emb (ix2 z z') = (ix2 z z' : S1x1.Idx) := by
    funext a; apply Fin.ext
    match a with
    | ⟨0, _⟩ => show win0_4.index t (0 : Fin 2) * 1 + 1 * z.val = z.val; rw [e0]; omega
    | ⟨1, _⟩ => show win0_4.index t (1 : Fin 2) * 1 + 1 * z'.val = z'.val; rw [e1]; omega
  rw [hemb, V_v3, Subsingleton.elim z' (0 : Fin 1)]
  exact shapeCast_a_1a_apply _ _ z (0 : Fin 1)

/-- The second score weight's block, a row: entry (0, o) is W2 (o, 0). -/
theorem blk_W2 (z : Fin 1) (o : Fin 64) :
    (iblk m c 5 t : Vec Ideal S1x64 .f32) (ix2 z o) = (argsOf m c).W2 (ix2 o (0 : Fin 1)) := by
  obtain ⟨-, -, -, -, -, ⟨e0, e1⟩, -⟩ := idx_facts t
  unfold iblk
  rw [View.read_apply]
  show V m c main_call0_v2 (((cfg0.win 5).blk t).view.emb (ix2 z o)) = _
  have hemb : ((cfg0.win 5).blk t).view.emb (ix2 z o) = (ix2 z o : S1x64.Idx) := by
    funext a; apply Fin.ext
    match a with
    | ⟨0, _⟩ => show win0_5.index t (0 : Fin 2) * 1 + 1 * z.val = z.val; rw [e0]; omega
    | ⟨1, _⟩ => show win0_5.index t (1 : Fin 2) * 64 + 1 * o.val = o.val; rw [e1]; omega
  rw [hemb, V_v2]
  refine shapeCast_apply _ _ _ (ix2 o (0 : Fin 1)) ?_
  rw [Shape.rowMajor_val_two, Shape.rowMajor_val_two]
  show o.val * 1 + (0 : Fin 1).val = z.val * 64 + o.val
  have hz : z.val = 0 := by omega
  rw [hz]; simp

/-- The second score bias' block: its one entry is b2 (0). -/
theorem blk_b2 (z z' : Fin 1) :
    (iblk m c 6 t : Vec Ideal S1x1 .f32) (ix2 z z') = (argsOf m c).b2 (ix1 (0 : Fin 1)) := by
  obtain ⟨-, -, -, -, -, -, ⟨e0, e1⟩, -⟩ := idx_facts t
  unfold iblk
  rw [View.read_apply]
  show V m c main_call0_v4 (((cfg0.win 6).blk t).view.emb (ix2 z z')) = _
  have hemb : ((cfg0.win 6).blk t).view.emb (ix2 z z') = (ix2 z z' : S1x1.Idx) := by
    funext a; apply Fin.ext
    match a with
    | ⟨0, _⟩ => show win0_6.index t (0 : Fin 2) * 1 + 1 * z.val = z.val; rw [e0]; omega
    | ⟨1, _⟩ => show win0_6.index t (1 : Fin 2) * 1 + 1 * z'.val = z'.val; rw [e1]; omega
  rw [hemb, V_v4, Subsingleton.elim z' (0 : Fin 1)]
  exact shapeCast_a_1a_apply _ _ z (0 : Fin 1)

/-- The output bias' block, a row: entry (0, o) is bias (o). -/
theorem blk_bias (z : Fin 1) (o : Fin 64) :
    (iblk m c 7 t : Vec Ideal S1x64 .f32) (ix2 z o) = (argsOf m c).bias (ix1 o) := by
  obtain ⟨-, -, -, -, -, -, -, ⟨e0, e1⟩⟩ := idx_facts t
  unfold iblk
  rw [View.read_apply]
  show V m c main_call0_v5 (((cfg0.win 7).blk t).view.emb (ix2 z o)) = _
  have hemb : ((cfg0.win 7).blk t).view.emb (ix2 z o) = (ix2 z o : S1x64.Idx) := by
    funext a; apply Fin.ext
    match a with
    | ⟨0, _⟩ => show win0_7.index t (0 : Fin 2) * 1 + 1 * z.val = z.val; rw [e0]; omega
    | ⟨1, _⟩ => show win0_7.index t (1 : Fin 2) * 64 + 1 * o.val = o.val; rw [e1]; omega
  rw [hemb, V_v5]
  exact shapeCast_a_1a_apply _ _ z o

/-! ## The offset of the kernel's one dynamic load -/

/-- The grid has one axis: the coordinate of point t is t. -/
theorem coords_val : ∀ t : Fin cfg0.N, ((grid0.coords t) 0).val = t.val :=
  (by decide +kernel : ∀ t : Fin grid0.N, _)

/-- The rows the kernel loads at point t start at 1024·t. -/
theorem off_src : k0_off1 (grid0.coords t) = ![1024 * t.val, 0] := by
  rw [k0_off1_eq, coords_val]

end Cert.KerSide

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KerDots.lean ====
/-
  The four matrix products of the kernel body, each read at a row and a column as a finite sum.  Three are plain
  products (rows by columns); the fourth contracts the second axis of both operands, so it reads the right operand
  transposed.
-/
import proofs.«128342_g53772990545978_cont_sun_c4_684_8_alg».proof.Proof.KerPieces
import proofs.«128342_g53772990545978_cont_sun_c4_684_8_alg».proof.Proof.LibDotIx2
import proofs.«128342_g53772990545978_cont_sun_c4_684_8_alg».proof.Proof.Spec
import Idealize.ShloMosaic.Lib.ValueIdx
import Idealize.ShloMosaic.PureOps.Ideal.Laws

noncomputable section

open scoped BigOperators

namespace Cert.KerSide

open Idealize.ShloMosaic Cert.KernelIdeal Cert.KernelIdeal.Gen Idealize.ShloMosaic.ValueIdx Cert.GatSpec

/-- The feature product, X (4096 × 128) by W (128 × 64), is a plain product. -/
theorem plain_feat : PlainDot dot_S4096x128_S128x64_S4096x64_1_0_0_1_n_n where
  rank := rfl
  size := rfl
  l0 := fun j q => rfl
  l1 := fun j q => DotDims.lhsIdx_val_of_single _ rfl j q
  r0 := fun j q => DotDims.rhsIdx_val_of_single _ rfl j q
  r1 := fun j q => rfl

/-- The source-score product, features (4096 × 64) by a column (64 × 1), is a plain product. -/
theorem plain_src : PlainDot dot_S4096x64_S64x1_S4096x1_1_0_0_1_n_n where
  rank := rfl
  size := rfl
  l0 := fun j q => rfl
  l1 := fun j q => DotDims.lhsIdx_val_of_single _ rfl j q
  r0 := fun j q => DotDims.rhsIdx_val_of_single _ rfl j q
  r1 := fun j q => rfl

/-- The aggregation product, weights (1024 × 4096) by the feature table (4096 × 128), is a plain product. -/
theorem plain_agg : PlainDot dot_S1024x4096_S4096x128_S1024x128_1_0_0_1_n_n where
  rank := rfl
  size := rfl
  l0 := fun j q => rfl
  l1 := fun j q => DotDims.lhsIdx_val_of_single _ rfl j q
  r0 := fun j q => DotDims.rhsIdx_val_of_single _ rfl j q
  r1 := fun j q => rfl

/-- The destination-score product contracts the second axis of both operands: a row (1 × 64) against the features
    (4096 × 64) read transposed.  At (z, n) it is the sum over o of row (z, o) times features (n, o). -/
theorem matmul_dst_ix2 {φ₁ φ₂ : FTy} (lhs : FVec Ideal S1x64 φ₁) (rhs : FVec Ideal S4096x64 φ₂) (z : Fin 1) (n : Fin 4096) :
    FloatOps.matmul dot_S1x64_S4096x64_S1x4096_1_1_0_0_n_n none lhs rhs (constant S1x4096 .f32 0x00000000#32) (ix2 z n)
      = ∑ o : Fin 64, (lhs (ix2 z o) : EReal) * (rhs (ix2 n o) : EReal) := by
  rw [Ideal.matmul_constant_zero_apply]
  rw [← Equiv.sum_comp (contrEquiv1 dot_S1x64_S4096x64_S1x4096_1_1_0_0_n_n 64 rfl rfl).symm]
  refine Finset.sum_congr rfl fun k _ => ?_
  have hk := contrEquiv1_symm_val dot_S1x64_S4096x64_S1x4096_1_1_0_0_n_n 64 rfl rfl k
  have el : dot_S1x64_S4096x64_S1x4096_1_1_0_0_n_n.lhsIdx (ix2 z n)
      ((contrEquiv1 dot_S1x64_S4096x64_S1x4096_1_1_0_0_n_n 64 rfl rfl).symm k) = ix2 z k := funext fun a => Fin.ext (by
    match a with
    | ⟨0, _⟩ => rfl
    | ⟨1, _⟩ => exact (DotDims.lhsIdx_val_of_single _ rfl _ _).trans hk)
  have er : dot_S1x64_S4096x64_S1x4096_1_1_0_0_n_n.rhsIdx (ix2 z n)
      ((contrEquiv1 dot_S1x64_S4096x64_S1x4096_1_1_0_0_n_n 64 rfl rfl).symm k) = ix2 n k := funext fun a => Fin.ext (by
    match a with
    | ⟨0, _⟩ => rfl
    | ⟨1, _⟩ => exact (DotDims.rhsIdx_val_of_single _ rfl _ _).trans hk)
  rw [el, er]

end Cert.KerSide

end
-- ==== Proof.KerValue1.lean ====
/-
  The three score tables of the first grid point, read at an index: the projected features are X times W; the source
  score of a node is its features against the first weight column plus a bias; the destination score is the second
  weight row against the features plus a bias.
-/
import proofs.«128342_g53772990545978_cont_sun_c4_684_8_alg».proof.Proof.KerPieces
import proofs.«128342_g53772990545978_cont_sun_c4_684_8_alg».proof.Proof.Spec
import proofs.«128342_g53772990545978_cont_sun_c4_684_8_alg».proof.Proof.LibDotIx2
import proofs.«128342_g53772990545978_cont_sun_c4_684_8_alg».proof.Proof.KerDots
import Idealize.ShloMosaic.Lib.ValueIdx
import Idealize.ShloMosaic.Lib.Pipeline.Value
import Idealize.ShloMosaic.PureOps.Ideal.Laws

noncomputable section

open scoped BigOperators

namespace Cert.KerSide

open Idealize.ShloMosaic Cert.KernelIdeal Cert.KernelIdeal.Gen Idealize.ShloMosaic.ValueIdx Cert.GatSpec

/-- The one entry of a 1 × 1 array, extracted at position (0, 0). -/
theorem extract_one (x : Vec Ideal S1x1 .f32) (h : ∀ a, (![0, 0] : Fin 2 → Nat) a < S1x1.size a) :
    extractAt ![0, 0] x h = x (ix2 (0 : Fin 1) (0 : Fin 1)) :=
  congrArg x (funext fun a => Fin.ext (by match a with | ⟨0, _⟩ => rfl | ⟨1, _⟩ => rfl))

/-- The projected features at (n, o): row n of X against column o of W. -/
theorem feat_apply (x0 : Vec Ideal S4096x128 .f32) (x2 : Vec Ideal S128x64 .f32) (n : Fin 4096) (o : Fin 64) :
    k0_pay2 x0 x2 (ix2 n o) = ∑ i : Fin 128, x0 (ix2 n i) * x2 (ix2 i o) := by
  unfold k0_pay2
  dsimp only [matmul]
  rw [shapeCast_self]
  exact matmul_zero_ix2_any plain_feat none x0 x2 n o

/-- The source score of node n. -/
theorem src_apply (x0 : Vec Ideal S4096x128 .f32) (x2 : Vec Ideal S128x64 .f32) (x3 : Vec Ideal S64x1 .f32)
    (x4 : Vec Ideal S1x1 .f32) (n : Fin 4096) (z : Fin 1) :
    srcOf x0 x2 x3 x4 (ix2 n z)
      = (∑ o : Fin 64, (∑ i : Fin 128, x0 (ix2 n i) * x2 (ix2 i o)) * x3 (ix2 o (0 : Fin 1)))
          + x4 (ix2 (0 : Fin 1) (0 : Fin 1)) := by
  obtain rfl : z = 0 := Subsingleton.elim _ _
  unfold srcOf k0_pay5
  dsimp only [matmul]
  rw [shapeCast_self, addf_apply, broadcast_apply, extract_one]
  rw [matmul_zero_ix2_any plain_src none (k0_pay2 x0 x2) x3 n 0]
  simp only [feat_apply]

/-- The destination score of node n. -/
theorem dst_apply (x0 : Vec Ideal S4096x128 .f32) (x2 : Vec Ideal S128x64 .f32) (x5 : Vec Ideal S1x64 .f32)
    (x6 : Vec Ideal S1x1 .f32) (z : Fin 1) (n : Fin 4096) :
    dstOf x0 x2 x5 x6 (ix2 z n)
      = (∑ o : Fin 64, x5 (ix2 (0 : Fin 1) o) * (∑ i : Fin 128, x0 (ix2 n i) * x2 (ix2 i o)))
          + x6 (ix2 (0 : Fin 1) (0 : Fin 1)) := by
  obtain rfl : z = 0 := Subsingleton.elim _ _
  unfold dstOf k0_pay8 k0_pay6 k0_pay7
  dsimp only [matmul]
  rw [shapeCast_self, addf_apply, broadcast_apply, extract_one, shapeCast_self]
  rw [matmul_dst_ix2 x5 (k0_pay2 x0 x2) 0 n]
  simp only [feat_apply]

end Cert.KerSide

end
-- ==== Proof.KerValue2.lean ====
/-
  The feature table of the first grid point, read at an index.  It is filled by two stores: columns 64..127 (a one in
  column 64, zeros after it), then columns 0..63 (the projected features).  A column below 64 lies off the first
  rectangle and on the second; column 64 is the first column of the first rectangle, where the column counter is zero
  and the selection reads one.
-/
import proofs.«128342_g53772990545978_cont_sun_c4_684_8_alg».proof.Proof.KerPieces
import proofs.«128342_g53772990545978_cont_sun_c4_684_8_alg».proof.Proof.Spec
import proofs.«128342_g53772990545978_cont_sun_c4_684_8_alg».proof.Proof.KerValue1
import Idealize.ShloMosaic.Lib.ValueIdx
import Idealize.ShloMosaic.Lib.Pipeline.Value
import Idealize.ShloMosaic.PureOps.Ideal.Laws

noncomputable section

open scoped BigOperators

namespace Cert.KerSide

open Idealize.ShloMosaic Cert.KernelIdeal Cert.KernelIdeal.Gen Idealize.ShloMosaic.ValueIdx Cert.GatSpec

/-- The block of ones and zeros at its first column reads one. -/
theorem ones_block_col0 (k : Fin 4096) : (k0_pay4 (F := Ideal)) (ix2 k (0 : Fin 64)) = oneBits := by
  unfold k0_pay4
  dsimp only
  rw [shapeCast_self, truncf_apply, select_apply]
  have hc : cmpi .eq (iota .tc S4096x64 32 [1] iota_S4096x64_d1_w32) (broadcast S4096x64 0#32) (ix2 k (0 : Fin 64)) = 1#1 := by
    show IntOp.cmpi .eq (iota .tc S4096x64 32 [1] iota_S4096x64_d1_w32 (ix2 k (0 : Fin 64))) 0#32 = 1#1
    rw [iota_single_apply]
    rfl
  rw [hc, select_one, broadcast_apply]
  rfl

/-- Column 64 of the table is one. -/
theorem table_one (x0 : Vec Ideal S4096x128 .f32) (x2 : Vec Ideal S128x64 .f32) (k : Fin 4096) (j : Fin 128)
    (hj : j.val = 64) : tableOf x0 x2 (ix2 k j) = oneBits := by
  have he : (ix2 k j : S4096x128.Idx)
      = (Rect.unit (s := S4096x128) ![0, 64] S4096x64.size inb_S4096x128_S4096x64_0_64).emb (ix2 k (0 : Fin 64)) :=
    funext fun a => Fin.ext (by
      match a with
      | ⟨0, _⟩ => show k.val = 0 + 1 * k.val; omega
      | ⟨1, _⟩ => show j.val = 64 + 1 * 0; omega)
  unfold tableOf
  rw [he]
  refine (View.canon_cons_emb _ _ _ _).trans ?_
  exact ones_block_col0 k

/-- A column below 64 of the table is the projected feature of that column. -/
theorem table_feat (x0 : Vec Ideal S4096x128 .f32) (x2 : Vec Ideal S128x64 .f32) (k : Fin 4096) (o : Fin 64)
    (j : Fin 128) (hj : j.val = o.val) :
    tableOf x0 x2 (ix2 k j) = ∑ i : Fin 128, x0 (ix2 k i) * x2 (ix2 i o) := by
  have hoff : (ix2 k j : S4096x128.Idx)
      ∉ (Rect.unit (s := S4096x128) ![0, 64] S4096x64.size inb_S4096x128_S4096x64_0_64).set := by
    rw [Rect.mem_set_unit]
    intro h
    have h1 := (h (1 : Fin 2)).1
    have : (64 : Nat) ≤ j.val := h1
    have := o.isLt
    omega
  have he : (ix2 k j : S4096x128.Idx)
      = (Rect.unit (s := S4096x128) ![0, 0] S4096x64.size inb_S4096x128_S4096x64_0_0).emb (ix2 k o) :=
    funext fun a => Fin.ext (by
      match a with
      | ⟨0, _⟩ => show k.val = 0 + 1 * k.val; omega
      | ⟨1, _⟩ => show j.val = 0 + 1 * o.val; omega)
  unfold tableOf
  refine (View.canon_cons_of_not_mem
    (⟨Rect.unit (s := S4096x128) ![0, 64] S4096x64.size inb_S4096x128_S4096x64_0_64, k0_pay4 (F := Ideal)⟩ :
      View.Piece (Elt Ideal) S4096x128 .bf16)
    [⟨Rect.unit (s := S4096x128) ![0, 0] S4096x64.size inb_S4096x128_S4096x64_0_0, k0_pay3 x0 x2⟩] hoff).trans ?_
  rw [he]
  refine (View.canon_cons_emb _ _ _ _).trans ?_
  unfold k0_pay3
  rw [shapeCast_self, truncf_apply]
  exact feat_apply x0 x2 k o

end Cert.KerSide

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KerValue3.lean ====
/-
  One result block of the kernel, read at an index.  At row p of the block and output column o: the logits of the row
  (source score of the row plus every destination score, through the leaky rectifier written as a maximum, plus the
  adjacency entry) are exponentiated; one product with the feature table gives, in columns 0..63, the weighted feature
  sums and, in column 64, the plain sum of the exponentials; the former times the reciprocal of the latter, plus the
  bias, goes through the exponential-linear unit twice.
-/
import proofs.«128342_g53772990545978_cont_sun_c4_684_8_alg».proof.Proof.KerPieces
import proofs.«128342_g53772990545978_cont_sun_c4_684_8_alg».proof.Proof.Spec
import proofs.«128342_g53772990545978_cont_sun_c4_684_8_alg».proof.Proof.LibDotIx2
import proofs.«128342_g53772990545978_cont_sun_c4_684_8_alg».proof.Proof.LibColumnLayout
import proofs.«128342_g53772990545978_cont_sun_c4_684_8_alg».proof.Proof.KerDots
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KerSide

open Idealize.ShloMosaic Cert.KernelIdeal Cert.KernelIdeal.Gen Idealize.ShloMosaic.ValueIdx Cert.GatSpec

/-- The exponential of an array, read at an index. -/
theorem vexp_apply {s : Shape} {φ : FTy} (a : FVec Ideal s φ) (i : s.Idx) : exp a i = Ideal.exp (a i) := rfl

/-- The unit as the body writes it — a selection on x > 0 between x and exp x minus the pattern of one — is `eluK`. -/
theorem elu_spelling (x : EReal) :
    Scalar.select (FloatOps.cmpf (F := Ideal) (φ := .f32) .ogt x (FloatOps.ofBits .f32 0x00000000#32)) x
        (Ideal.exp x - FloatOps.ofBits (F := Ideal) .f32 0x3F800000#32) = eluK x := by
  unfold eluK
  rw [Ideal.cmpf_def, Ideal.ofBits_def, Ideal.ofBits_zero_f32]
  rfl

/-- The block of source scores loaded at the grid point's offset reads, at row p, the table at row 1024·i + p. -/
theorem f1b_apply (i : grid0.Coords) (f1 : Vec Ideal S4096x1 .f32) (p : Fin 1024) (r : Fin 4096)
    (hr : r.val = 1024 * (i 0).val + p.val) :
    View.ld f1 (Rect.unit (k0_off1 i) S1024x1.size (k0_off1_inb i)) (ix2 p (0 : Fin 1)) = f1 (ix2 r (0 : Fin 1)) := by
  show f1 _ = f1 _
  refine congrArg f1 (funext fun a => Fin.ext ?_)
  rw [LoadRect.idx_apply]
  have h := k0_off1_eq i
  match a with
  | ⟨0, _⟩ =>
    show k0_off1 i 0 + 1 * p.val = r.val
    rw [h]
    show 1024 * (i 0).val + 1 * p.val = r.val
    omega
  | ⟨1, _⟩ =>
    show k0_off1 i 1 + 1 * 0 = 0
    rw [h]
    rfl

/-- The last stored value is the unit applied to the value before it. -/
theorem pay1_apply (v5 : Vec Ideal S1024x1 .f32) (v6 : Vec Ideal S1x4096 .f32) (v13 : Vec Ideal S1024x4096 .f32)
    (v18 : Vec Ideal S4096x128 .bf16) (v26 : Vec Ideal S1x64 .f32) (j : S1024x64.Idx) :
    k0_pay1 (k0_pay9 v5 v6 v13 v18 v26) (k0_pay10 v5 v6 v13 v18 v26) (k0_pay11 v5 v6 v13 v18 v26)
        (FloatOps.ofBits .f32 1065353216#32) j
      = eluK (k0_pay9 v5 v6 v13 v18 v26 j) := by
  unfold k0_pay1 k0_pay10 k0_pay11
  try dsimp only
  generalize k0_pay9 v5 v6 v13 v18 v26 = Y
  rw [select_apply, cmpf_apply, subf_apply, broadcast_apply, broadcast_apply, vexp_apply]
  exact elu_spelling (Y j)

/-- The value before the last unit, at row p and column o. -/
theorem pay9_apply (v5 : Vec Ideal S1024x1 .f32) (v6 : Vec Ideal S1x4096 .f32) (v13 : Vec Ideal S1024x4096 .f32)
    (v18 : Vec Ideal S4096x128 .bf16) (v26 : Vec Ideal S1x64 .f32) (p : Fin 1024) (o : Fin 64) :
    k0_pay9 v5 v6 v13 v18 v26 (ix2 p o)
      = eluK (
          (∑ k : Fin 4096, Ideal.exp (max (v5 (ix2 p (0 : Fin 1)) + v6 (ix2 (0 : Fin 1) k)) (slopeBits * (v5 (ix2 p (0 : Fin 1)) + v6 (ix2 (0 : Fin 1) k))) + v13 (ix2 p k)) * v18 (ix2 k (⟨o.val, by omega⟩ : Fin 128)))
          * Ideal.div oneBits (∑ k : Fin 4096, Ideal.exp (max (v5 (ix2 p (0 : Fin 1)) + v6 (ix2 (0 : Fin 1) k)) (slopeBits * (v5 (ix2 p (0 : Fin 1)) + v6 (ix2 (0 : Fin 1) k))) + v13 (ix2 p k)) * v18 (ix2 k (⟨64, by norm_num⟩ : Fin 128)))
          + v26 (ix2 (0 : Fin 1) o)) := by
  unfold k0_pay9
  dsimp only [matmul]
  rw [select_apply, cmpf_apply, subf_apply, broadcast_apply, broadcast_apply, vexp_apply]
  refine (elu_spelling _).trans (congrArg eluK ?_)
  rw [addf_apply, mulf_apply]
  rw [broadcastTo_1b_ab_apply, shapeCast_self]
  rw [broadcastTo_a1_ab_apply, divf_apply, broadcast_apply]
  rw [slice2_axis1_apply 64 _ _ p (0 : Fin 1) (⟨64, by norm_num⟩ : Fin 128) rfl]
  rw [slice2_axis1_apply 0 _ _ p o (⟨o.val, by omega⟩ : Fin 128) (Nat.zero_add _).symm]
  rw [matmul_zero_ix2_any plain_agg none _ v18 p (⟨o.val, by omega⟩ : Fin 128),
    matmul_zero_ix2_any plain_agg none _ v18 p (⟨64, by norm_num⟩ : Fin 128)]
  simp only [truncf_apply, vexp_apply, addf_apply, maximumf_apply, mulf_apply, broadcast_apply,
    broadcastTo_a1_ab_apply, broadcastTo_1b_ab_apply, shapeCast_self]
  rfl

/-- The result block of the grid point i at row p and column o, with r = 1024·i + p the row of the whole array. -/
theorem blockOut_apply (i : grid0.Coords) (f1 : Vec Ideal S4096x1 .f32) (f2 : Vec Ideal S1x4096 .f32)
    (tbl : Vec Ideal S4096x128 .bf16) (adjb : Vec Ideal S1024x4096 .f32) (biasb : Vec Ideal S1x64 .f32)
    (p : Fin 1024) (o : Fin 64) (r : Fin 4096) (hr : r.val = 1024 * (i 0).val + p.val) :
    blockOut i f1 f2 tbl adjb biasb (ix2 p o)
      = eluK (eluK (
          (∑ k : Fin 4096, Ideal.exp (max (f1 (ix2 r (0 : Fin 1)) + f2 (ix2 (0 : Fin 1) k)) (slopeBits * (f1 (ix2 r (0 : Fin 1)) + f2 (ix2 (0 : Fin 1) k))) + adjb (ix2 p k)) * tbl (ix2 k (⟨o.val, by omega⟩ : Fin 128)))
          * Ideal.div oneBits (∑ k : Fin 4096, Ideal.exp (max (f1 (ix2 r (0 : Fin 1)) + f2 (ix2 (0 : Fin 1) k)) (slopeBits * (f1 (ix2 r (0 : Fin 1)) + f2 (ix2 (0 : Fin 1) k))) + adjb (ix2 p k)) * tbl (ix2 k (⟨64, by norm_num⟩ : Fin 128)))
          + biasb (ix2 (0 : Fin 1) o))) := by
  unfold blockOut
  rw [pay1_apply, pay9_apply, f1b_apply i f1 p r hr]

end Cert.KerSide

end
-- ==== Proof.KerValue.lean ====
/-
  The kernel body's arithmetic read at an index, gathered: the score tables and the feature table of the first grid
  point, and one result block of any grid point.
-/
import proofs.«128342_g53772990545978_cont_sun_c4_684_8_alg».proof.Proof.KerValue1
import proofs.«128342_g53772990545978_cont_sun_c4_684_8_alg».proof.Proof.KerValue2
import proofs.«128342_g53772990545978_cont_sun_c4_684_8_alg».proof.Proof.KerValue3
-- ==== Proof.KerPoint.lean ====
/-
  One entry of one block: what grid point t leaves at (p, o) of its block of the result is the layer's value at row
  1024·t + p, column o, in the kernel's spelling.

  The block function is read at (p, o); then each table is read as the arguments: the feature table is the projected
  features in columns 0..63 and ones in column 64, the source and destination scores are the spec's, the adjacency block
  holds rows 1024·t … of the adjacency, and the re-laid bias is the bias.
-/
import proofs.«128342_g53772990545978_cont_sun_c4_684_8_alg».proof.Proof.KerInv
import proofs.«128342_g53772990545978_cont_sun_c4_684_8_alg».proof.Proof.KerInputs
import proofs.«128342_g53772990545978_cont_sun_c4_684_8_alg».proof.Proof.KerValue
import proofs.«128342_g53772990545978_cont_sun_c4_684_8_alg».proof.Proof.ArgsOf

noncomputable section

open Idealize.ShloMosaic Idealize.ShloMosaic.TcCoe Idealize.SL.Sem

namespace Cert.KerSide

open Cert.KernelIdeal Cert.KernelIdeal.Gen Idealize.ShloMosaic.ValueIdx Cert.GatSpec

variable (m : (ℓ : Loc nD τ sig) → Buf (Elt Ideal) ℓ) (c : Dev nD)

/-- The source scores the first point stores are the spec's. -/
theorem srcT_apply (r : Fin 4096) (z : Fin 1) : (srcT m c : Vec Ideal S4096x1 .f32) (ix2 r z) = src (argsOf m c) r := by
  unfold srcT
  rw [src_apply]
  simp only [blk_X, blk_W, blk_W1, blk_b1]
  rfl

/-- The destination scores the first point stores are the spec's, the weight on the left of each product. -/
theorem dstT_apply (z : Fin 1) (k : Fin 4096) : (dstT m c : Vec Ideal S1x4096 .f32) (ix2 z k) = dstK (argsOf m c) k := by
  unfold dstT
  rw [dst_apply]
  simp only [blk_X, blk_W, blk_W2, blk_b2]
  rfl

/-- Columns 0..63 of the feature table are the projected features. -/
theorem tbl_feat (k : Fin 4096) (o : Fin 64) (j : Fin 128) (hj : j.val = o.val) :
    (tbl m c : Vec Ideal S4096x128 .bf16) (ix2 k j) = feat (argsOf m c) k o := by
  unfold tbl
  rw [table_feat _ _ k o j hj]
  simp only [blk_X, blk_W]
  rfl

/-- Column 64 of the feature table is ones. -/
theorem tbl_one (k : Fin 4096) (j : Fin 128) (hj : j.val = 64) : (tbl m c : Vec Ideal S4096x128 .bf16) (ix2 k j) = oneBits := by
  unfold tbl
  exact table_one _ _ k j hj

theorem point_value (t : Fin cfg0.N) (p : Fin 1024) (o : Fin 64)
    (r : Fin 4096) (hr : r.val = 1024 * t.val + p.val) :
    ((outsAt0 m c t.val t.isLt).1 : Vec Ideal S1024x64 .f32) (ix2 p o) = Cert.GatSpec.kerOut (argsOf m c) r o := by
  rw [block_at m c t]
  rw [blockOut_apply (grid0.coords t) (srcT m c) (dstT m c) (tbl m c) (iblk m c 1 t) (iblk m c 7 t) p o r
    (by rw [coords_val t]; exact hr)]
  have hf : ∀ k : Fin 4096, (tbl m c : Vec Ideal S4096x128 .bf16) (ix2 k (⟨o.val, by omega⟩ : Fin 128)) = feat (argsOf m c) k o :=
    fun k => tbl_feat m c k o _ rfl
  have h1 : ∀ k : Fin 4096, (tbl m c : Vec Ideal S4096x128 .bf16) (ix2 k (⟨64, by norm_num⟩ : Fin 128)) = oneBits :=
    fun k => tbl_one m c k _ rfl
  simp only [srcT_apply, dstT_apply, hf, h1, blk_adj m c t p _ r hr, blk_bias]
  rfl

end Cert.KerSide

end
-- ==== Proof.KerArr.lean ====
/-
  From blocks to the array. Grid point t writes back rows 1024·t … 1024·t + 1023 of the 4096 × 64 result; the four
  blocks tile the array, and each is the matching block of the layer's value in the kernel's spelling. So after the
  run the result array is that value, and the arguments are unchanged.
-/
import proofs.«128342_g53772990545978_cont_sun_c4_684_8_alg».proof.Proof.KerPoint
import proofs.«128342_g53772990545978_cont_sun_c4_684_8_alg».proof.Proof.Gen.KernelIdeal.Value

noncomputable section

open Idealize.ShloMosaic Idealize.ShloMosaic.TcCoe Idealize.SL.Sem
open Idealize.ShloMosaic.Pipeline (Dat)

namespace Cert.KerSide

open Cert.KernelIdeal Cert.KernelIdeal.Gen Idealize.ShloMosaic.ValueIdx

variable (m : (ℓ : Loc nD τ sig) → Buf (Elt Ideal) ℓ) (ρ : Dev nD → PrngReg)

/-- The output's block index at point t: row block t, the one column block. -/
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- What point t writes back is block t of the layer's value. -/
theorem flushed_eq (c : Dev nD) (t : Fin cfg0.N) :
    (dats m 0 c).flushed 8 t = ((cfg0.win 8).blk t).view.read (Elt Ideal) (Cert.GatSpec.kerArr (argsOf m c)) := by
  rw [Cert.KernelIdeal.Value.flushed8]
  funext y
  obtain ⟨p, o, rfl⟩ : ∃ (p : Fin 1024) (o : Fin 64), y = ix2 p o := ⟨y 0, y 1, eq_ix2 y⟩
  rw [View.read_apply]
  have hp : 1024 * t.val + p.val < 4096 := by
    have := t.isLt; have hN : cfg0.N = 4 := N_0; have := p.isLt; omega
  have hemb : ((cfg0.win 8).blk t).view.emb (ix2 p o) = ix2 (⟨1024 * t.val + p.val, hp⟩ : Fin 4096) o := by
    funext a; apply Fin.ext
    match a with
    | ⟨0, _⟩ => show win0_8.index t (0 : Fin 2) * 1024 + 1 * p.val = 1024 * t.val + p.val; rw [(idx8 t).1]; omega
    | ⟨1, _⟩ => show win0_8.index t (1 : Fin 2) * 64 + 1 * o.val = o.val; rw [(idx8 t).2]; omega
  show ((outsAt0 m c t.val t.isLt).1 : Vec Ideal S1024x64 .f32) (ix2 p o)
    = Cert.GatSpec.kerArr (argsOf m c) (((cfg0.win 8).blk t).view.emb (ix2 p o))
  rw [hemb, Cert.GatSpec.kerArr_ix2]
  exact point_value m c t p o _ rfl

/-- An index of the result is in point t's block iff each coordinate is in the block's range on its axis. -/
theorem mem_blk8 (t : Fin cfg0.N) (i : S4096x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v0).slice (win0_8.rect t)).set ↔ _
  rw [View.set_slice_whole, Rect.mem_set_unit]
  exact Iff.rfl

/-- The result array after the run. -/
theorem final (c : Dev nD) : (dats m 0 c).arrAt 8 cfg0.N = Cert.GatSpec.kerArr (argsOf m c) :=
  (dats m 0 c).arrAt_eq_of_cover 8 (Cert.GatSpec.kerArr (argsOf m c)) (fun t _ => flushed_eq m c t) fun i => by
    have hi0 : (i 0).val < 4096 := (i 0).isLt
    have hi1 : (i 1).val < 64 := (i 1).isLt
    have hN : cfg0.N = 4 := N_0
    refine ⟨⟨(i 0).val / 1024, by omega⟩, flush0_8 _, ?_⟩
    rw [mem_blk8]
    intro a
    match a with
    | ⟨0, _⟩ =>
      show win0_8.index ⟨(i 0).val / 1024, _⟩ (0 : Fin 2) * 1024 ≤ (i 0).val ∧ (i 0).val < win0_8.index ⟨(i 0).val / 1024, _⟩ (0 : Fin 2) * 1024 + 1024
      rw [(idx8 _).1]; dsimp only; omega
    | ⟨1, _⟩ =>
      show win0_8.index ⟨(i 0).val / 1024, _⟩ (1 : Fin 2) * 64 ≤ (i 1).val ∧ (i 1).val < win0_8.index ⟨(i 0).val / 1024, _⟩ (1 : Fin 2) * 64 + 64
      rw [(idx8 _).2]; omega

/-- The kernel's run, read: the result array at the layer's value in the kernel's spelling, the arguments unchanged. -/
theorem run : θ_run defs (onTc (τ := τ) (main (F := Ideal))) ⟨m, fun _ => 0, ρ⟩ fun r => ∀ c : Dev nD,
      r.2.mem ((c : Thread nD τ).loc main_v0) = Cert.GatSpec.kerArr (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KerSide

end
-- ==== Proof.BridgeConsts.lean ====
/-
  The three float patterns the two formulas spell, as the extended reals they denote: the unit, minus infinity, and
  the rectifier's slope, a real strictly between zero and one.
-/
import proofs.«128342_g53772990545978_cont_sun_c4_684_8_alg».proof.Proof.Spec

noncomputable section

namespace Cert.GatSpec

open Idealize.ShloMosaic

/-- The pattern of `1.0` denotes `1`. -/
theorem oneBits_eq : oneBits = 1 := by
  simp [Ideal.ofBits, Ideal.ieee, -EReal.coe_mul]; norm_num

/-- The pattern of `-inf` denotes the bottom element. -/
theorem ninfBits_eq : ninfBits = ⊥ := by
  simp [Ideal.ofBits, Ideal.ieee]

/-- The rectifier's slope: 13421773 · 2⁻²⁶, the single-precision neighbour of 0.2. -/
def slope : ℝ := 13421773 / 67108864

/-- The slope's pattern denotes that real. -/
theorem slopeBits_eq : slopeBits = ((slope : ℝ) : EReal) := by
  simp [Ideal.ofBits, Ideal.ieee, slope, -EReal.coe_mul]; norm_num

theorem slope_pos : 0 < slope := by unfold slope; norm_num

theorem slope_lt_one : slope < 1 := by unfold slope; norm_num

end Cert.GatSpec

end
-- ==== Proof.BridgeReal.lean ====
/-
  Facts about extended reals that are coerced reals, stated without reference to the layer: finite sums, the leaky
  rectifier in its two spellings, the exponential-linear unit in its two spellings, the running maximum of finitely
  many reals, and the identity between a softmax normalised after the product and a shifted softmax normalised before.
-/
import proofs.«128342_g53772990545978_cont_sun_c4_684_8_alg».proof.Proof.Spec
import proofs.«128342_g53772990545978_cont_sun_c4_684_8_alg».proof.Proof.BridgeConsts

noncomputable section

open scoped BigOperators

namespace Cert.GatSpec

open Idealize.ShloMosaic

/-- A finite sum of coerced reals is the coercion of the real sum. -/
theorem coe_finset_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion commutes with the maximum of two reals. -/
theorem coe_max_real (x y : ℝ) : ((max x y : ℝ) : EReal) = max (x : EReal) (y : EReal) :=
  EReal.coe_strictMono.monotone.map_max

/-- The rectifier as a maximum, on a real. -/
theorem leaky_max_coe (s l : ℝ) :
    max (l : EReal) ((s : EReal) * (l : EReal)) = ((max l (s * l) : ℝ) : EReal) := by
  rw [← EReal.coe_mul, coe_max_real]

/-- The rectifier as a selection on the sign, on a real: for a slope at most one it is the same maximum. -/
theorem leaky_select_coe (s l : ℝ) (hs : s ≤ 1) :
    Scalar.select (Ideal.cmp .oge (l : EReal) 0) (l : EReal) ((s : EReal) * (l : EReal))
      = ((max l (s * l) : ℝ) : EReal) := by
  unfold Ideal.cmp Scalar.select
  by_cases h : 0 ≤ l
  · have h' : (0 : EReal) ≤ (l : EReal) := by exact_mod_cast h
    have hle : s * l ≤ l := by nlinarith
    simp [h', max_eq_left hle]
  · have h' : ¬ (0 : EReal) ≤ (l : EReal) := by exact_mod_cast h
    have hl : l < 0 := not_le.mp h
    have hle : l ≤ s * l := by nlinarith
    simp [h', max_eq_right hle, ← EReal.coe_mul]

/-- The two spellings of the exponential-linear unit agree at every extended real: above zero both return the
    argument; otherwise the inner selection returns the argument and the factor one drops. -/
theorem eluR_eq_eluK (x : EReal) : eluR x = eluK x := by
  unfold eluR eluK
  rw [oneBits_eq]
  by_cases h : Ideal.cmp .ogt x 0 = 1
  · simp only [Scalar.select, if_pos h]
  · simp only [Scalar.select, if_neg h, one_mul]

/-- The running maximum from the bottom element over a nonempty finite family of reals is a real. -/
theorem fold_max_bot_real {ι : Type} [Fintype ι] [Nonempty ι] (f : ι → ℝ) :
    ∃ M : ℝ, (Finset.univ : Finset ι).fold max (⊥ : EReal) (fun k => ((f k : ℝ) : EReal)) = (M : EReal) := by
  set v := (Finset.univ : Finset ι).fold max (⊥ : EReal) (fun k => ((f k : ℝ) : EReal)) with hv
  have htop : v < ⊤ := by
    rw [hv, Finset.fold_max_lt]
    exact ⟨bot_lt_top, fun x _ => EReal.coe_lt_top _⟩
  have hbot : ⊥ < v := by
    obtain ⟨i⟩ := ‹Nonempty ι›
    have : ((f i : ℝ) : EReal) ≤ v := by
      rw [hv, Finset.le_fold_max]
      exact Or.inr ⟨i, Finset.mem_univ i, le_rfl⟩
    exact lt_of_lt_of_le (EReal.bot_lt_coe _) this
  exact ⟨v.toReal, (EReal.coe_toReal htop.ne hbot.ne').symm⟩

/-- The real identity joining the two rows: weights exp(z k) normalised after the product by their plain sum give
    the same combination as weights exp(z k − M) each divided beforehand by the sum of the shifted exponentials. -/
theorem softmax_shift_real {ι : Type} [Fintype ι] [Nonempty ι] (z f : ι → ℝ) (M : ℝ) :
    (∑ k, Real.exp (z k) * f k) * (1 / ∑ k, Real.exp (z k))
      = ∑ k, Real.exp (z k - M) * (1 / ∑ j, Real.exp (z j - M)) * f k := by
  have hS : (0 : ℝ) < ∑ k, Real.exp (z k) :=
    Finset.sum_pos (fun i _ => Real.exp_pos _) Finset.univ_nonempty
  have hM : Real.exp M ≠ 0 := (Real.exp_pos M).ne'
  have hE : ∀ k, Real.exp (z k - M) = Real.exp (z k) * (Real.exp M)⁻¹ := fun k => by
    rw [Real.exp_sub, div_eq_mul_inv]
  simp only [hE, ← Finset.sum_mul]
  rw [Finset.sum_mul]
  refine Finset.sum_congr rfl (fun k _ => ?_)
  field_simp

/-- The same identity on the extended reals, in the two spellings of a row: on the left the products with the plain
    exponentials, then one division by their sum (itself spelt as a product with ones); on the right each shifted
    exponential divided by the sum of the shifted exponentials (spelt from zero), then the products. -/
theorem row_bridge {ι : Type} [Fintype ι] [Nonempty ι] (z f : ι → ℝ) (M : ℝ) :
    (∑ k, Ideal.exp ((z k : ℝ) : EReal) * ((f k : ℝ) : EReal))
        * Ideal.div 1 (∑ k, Ideal.exp ((z k : ℝ) : EReal) * 1)
      = ∑ k, Ideal.div (Ideal.exp (((z k : ℝ) : EReal) - ((M : ℝ) : EReal)))
            (0 + ∑ j, Ideal.exp (((z j : ℝ) : EReal) - ((M : ℝ) : EReal))) * ((f k : ℝ) : EReal) := by
  have hS : (∑ k, Real.exp (z k)) ≠ 0 :=
    (Finset.sum_pos (fun i _ => Real.exp_pos _) Finset.univ_nonempty).ne'
  have hT : (∑ k, Real.exp (z k - M)) ≠ 0 :=
    (Finset.sum_pos (fun i _ => Real.exp_pos _) Finset.univ_nonempty).ne'
  have hL : (∑ k, Ideal.exp ((z k : ℝ) : EReal) * ((f k : ℝ) : EReal))
        * Ideal.div 1 (∑ k, Ideal.exp ((z k : ℝ) : EReal) * 1)
      = (((∑ k, Real.exp (z k) * f k) * (1 / ∑ k, Real.exp (z k)) : ℝ) : EReal) := by
    simp only [Ideal.exp_coe, mul_one, ← EReal.coe_mul, coe_finset_sum]
    rw [Ideal.div_coe hS, one_mul, ← EReal.coe_mul]
  have hR : (∑ k, Ideal.div (Ideal.exp (((z k : ℝ) : EReal) - ((M : ℝ) : EReal)))
            (0 + ∑ j, Ideal.exp (((z j : ℝ) : EReal) - ((M : ℝ) : EReal))) * ((f k : ℝ) : EReal))
      = ((∑ k, Real.exp (z k - M) * (1 / ∑ j, Real.exp (z j - M)) * f k : ℝ) : EReal) := by
    simp only [← EReal.coe_sub, Ideal.exp_coe, zero_add, coe_finset_sum]
    simp only [Ideal.div_coe hT, ← EReal.coe_mul, coe_finset_sum]
  rw [hL, hR, softmax_shift_real z f M]

end Cert.GatSpec

end
-- ==== Proof.BridgeRow.lean ====
/-
  With every argument entry a real, every intermediate quantity of the layer is a coerced real: the projected
  features, the two scores (the destination score in either order of its product), the logits in both spellings of
  the rectifier, and the row maximum.  On such a row the two spellings of the normalised product agree.
-/
import proofs.«128342_g53772990545978_cont_sun_c4_684_8_alg».proof.Proof.Spec
import proofs.«128342_g53772990545978_cont_sun_c4_684_8_alg».proof.Proof.BridgeConsts
import proofs.«128342_g53772990545978_cont_sun_c4_684_8_alg».proof.Proof.BridgeReal

noncomputable section

open scoped BigOperators

namespace Cert.GatSpec

open Idealize.ShloMosaic Idealize.ShloMosaic.ValueIdx

variable (a : Args)

/-- The projected features are reals. -/
theorem feat_real (h : a.Finite) :
    ∃ F : Fin 4096 → Fin 64 → ℝ, ∀ n o, feat a n o = ((F n o : ℝ) : EReal) := by
  choose X hX using h.X
  choose W hW using h.W
  refine ⟨fun n o => ∑ i : Fin 128, X (ix3 (0 : Fin 1) n i) * W (ix2 i o), fun n o => ?_⟩
  unfold feat
  simp only [hX, hW, ← EReal.coe_mul]
  exact coe_finset_sum _ _

/-- The source scores are reals. -/
theorem src_real (h : a.Finite) : ∃ S : Fin 4096 → ℝ, ∀ n, src a n = ((S n : ℝ) : EReal) := by
  obtain ⟨F, hF⟩ := feat_real a h
  choose W1 hW1 using h.W1
  choose b1 hb1 using h.b1
  refine ⟨fun n => (∑ o : Fin 64, F n o * W1 (ix2 o (0 : Fin 1))) + b1 (ix1 (0 : Fin 1)), fun n => ?_⟩
  unfold src
  simp only [hF, hW1, hb1, ← EReal.coe_mul]
  rw [coe_finset_sum, ← EReal.coe_add]

/-- The order of the factors in the destination score does not matter. -/
theorem dstK_eq_dst (n : Fin 4096) : dstK a n = dst a n := by
  unfold dstK dst
  congr 1
  exact Finset.sum_congr rfl (fun o _ => mul_comm _ _)

/-- The destination scores are reals. -/
theorem dst_real (h : a.Finite) : ∃ D : Fin 4096 → ℝ, ∀ n, dst a n = ((D n : ℝ) : EReal) := by
  obtain ⟨F, hF⟩ := feat_real a h
  choose W2 hW2 using h.W2
  choose b2 hb2 using h.b2
  refine ⟨fun n => (∑ o : Fin 64, F n o * W2 (ix2 o (0 : Fin 1))) + b2 (ix1 (0 : Fin 1)), fun n => ?_⟩
  unfold dst
  simp only [hF, hW2, hb2, ← EReal.coe_mul]
  rw [coe_finset_sum, ← EReal.coe_add]

/-- The logits are reals, and the two spellings of the rectifier give the same ones. -/
theorem logit_real (h : a.Finite) :
    ∃ z : Fin 4096 → Fin 4096 → ℝ,
      ∀ r c, logitK a r c = ((z r c : ℝ) : EReal) ∧ logitR a r c = ((z r c : ℝ) : EReal) := by
  obtain ⟨S, hS⟩ := src_real a h
  obtain ⟨D, hD⟩ := dst_real a h
  choose A hA using h.adj
  refine ⟨fun r c => max (S r + D c) (slope * (S r + D c)) + A (ix3 (0 : Fin 1) r c), fun r c => ⟨?_, ?_⟩⟩
  · unfold logitK
    rw [dstK_eq_dst, hS, hD, hA, slopeBits_eq, ← EReal.coe_add, leaky_max_coe, ← EReal.coe_add]
  · unfold logitR
    rw [hS, hD, hA, slopeBits_eq, ← EReal.coe_add, leaky_select_coe _ _ slope_lt_one.le, ← EReal.coe_add]

/-- The maximum of a row of real logits is a real. -/
theorem rowMax_real (z : Fin 4096 → Fin 4096 → ℝ) (hz : ∀ r c, logitR a r c = ((z r c : ℝ) : EReal))
    (r : Fin 4096) : ∃ M : ℝ, rowMax a r = (M : EReal) := by
  obtain ⟨M, hM⟩ := fold_max_bot_real (fun k => z r k)
  refine ⟨M, ?_⟩
  unfold rowMax
  rw [ninfBits_eq]
  simp only [hz]
  rw [hM]
  exact max_eq_right bot_le

/-- The row before the two units is the same in both spellings. -/
theorem preK_eq_preR (h : a.Finite) (r : Fin 4096) (o : Fin 64) : preK a r o = preR a r o := by
  obtain ⟨F, hF⟩ := feat_real a h
  obtain ⟨z, hz⟩ := logit_real a h
  obtain ⟨M, hM⟩ := rowMax_real a z (fun r c => (hz r c).2) r
  have hzK : ∀ c, logitK a r c = ((z r c : ℝ) : EReal) := fun c => (hz r c).1
  have hzR : ∀ c, logitR a r c = ((z r c : ℝ) : EReal) := fun c => (hz r c).2
  unfold preK preR rowSum expR
  rw [oneBits_eq]
  simp only [hzK, hzR, hF, hM]
  rw [row_bridge (fun k => z r k) (fun k => F k o) M]

end Cert.GatSpec

end
-- ==== Proof.Bridge.lean ====
/-
  The two spellings of the graph-attention layer give the same extended real at every position, whenever every
  argument entry is a real.
-/
import proofs.«128342_g53772990545978_cont_sun_c4_684_8_alg».proof.Proof.Spec
import proofs.«128342_g53772990545978_cont_sun_c4_684_8_alg».proof.Proof.BridgeReal
import proofs.«128342_g53772990545978_cont_sun_c4_684_8_alg».proof.Proof.BridgeRow

noncomputable section

namespace Cert.GatSpec

open Idealize.ShloMosaic Idealize.ShloMosaic.ValueIdx

/-- Entry by entry: the rows before the units agree, and the two spellings of the unit agree everywhere. -/
theorem kerOut_eq_refOut (a : Args) (h : a.Finite) (r : Fin 4096) (o : Fin 64) : kerOut a r o = refOut a r o := by
  unfold kerOut refOut
  rw [preK_eq_preR a h r o, eluR_eq_eluK, eluR_eq_eluK]

/-- As whole arrays. -/
theorem kerArr_eq_refArr (a : Args) (h : a.Finite) : kerArr a = refArr a := by
  funext j
  rw [ValueIdx.eq_ix2 j]
  exact kerOut_eq_refOut a h _ _

end Cert.GatSpec

end
-- ==== Proof.FiniteArgs.lean ====
/-
  Finiteness of the arguments, read back from the precondition.

  The precondition evaluates, for each of the eight argument arrays x, the conjunction over every index i of the
  comparison |x i| < +∞ (the bound spelled as the float pattern 0x7F800000), and says that the conjunction of the eight
  results is true. On the extended reals |x| = max x (-x), so |x| < +∞ fails exactly at x = +∞ and at x = -∞: an entry
  that passes the comparison is a real number. One lemma for an array of any shape, applied eight times.
-/
import proofs.«128342_g53772990545978_cont_sun_c4_684_8_alg».proof.Proof.ArgsOf
import proofs.«128342_g53772990545978_cont_sun_c4_684_8_alg».proof.Proof.Gen.Pre_finite_inputs
import Idealize.ShloMosaic.Lib.ReduceAll
import Idealize.ShloMosaic.PureOps.Ideal.Laws

noncomputable section

namespace Cert.KerSide

open Idealize.ShloMosaic Idealize.SL.Sem Cert.KernelIdeal

/-- The shape with no axes has exactly one index. -/
instance : Subsingleton Cert.Pre_finite_inputs.S_.Idx := ⟨fun a b => funext fun d => d.elim0⟩

/-- The pattern 0x7F800000 denotes +∞. -/
theorem ofBits_pinf : Ideal.ofBits .f32 0x7F800000#32 = (⊤ : EReal) := by
  simp [Ideal.ofBits, Ideal.ieee]

/-- An extended real whose absolute value is strictly below +∞ is a real number. -/
theorem real_of_abs_lt_top (x : EReal) (h : Ideal.cmp .olt (max x (-x)) (⊤ : EReal) = 1#1) : ∃ r : ℝ, x = r := by
  induction x using EReal.rec with
  | bot => simp [Ideal.cmp] at h
  | top => simp [Ideal.cmp] at h
  | coe r => exact ⟨r, rfl⟩

/-- If the conjunction over all entries of "|x i| < +∞" is true, every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = r := by
  intro i
  have h1 := Host.reduce_andi_all _ _ hr hu ValueIdx.ix0 e i
  refine real_of_abs_lt_top (x i) ?_
  rw [← ofBits_pinf]
  exact h1

/-- The precondition on a launch memory says every entry of every argument is a real number. -/
theorem finite_of_pre (m : (ℓ : Loc nD τ sig) → Buf (Elt Ideal) ℓ)
    (h : Cert.Pre_KernelIdeal (hPre_finite_inputs := Cert.Pre_finite_inputs.Gen.facts) m) (c : Dev nD) :
    (Cert.KerSide.argsOf m c).Finite := by
  have h0 := congrFun (h c) ValueIdx.ix0
  unfold Cert.Pre_finite_inputs.fn Cert.Pre_finite_inputs.fn_part1 Cert.Pre_finite_inputs.fn_part2 at h0
  dsimp only at h0
  simp only [andi, IntOp.andi_eq_one] at h0
  obtain ⟨⟨⟨⟨⟨⟨⟨e0, e1⟩, e2⟩, e3⟩, e4⟩, e5⟩, e6⟩, e7⟩ := h0
  exact ⟨all_real _ _ _ _ e0, all_real _ _ _ _ e1, all_real _ _ _ _ e2, all_real _ _ _ _ e3,
    all_real _ _ _ _ e4, all_real _ _ _ _ e5, all_real _ _ _ _ e6, all_real _ _ _ _ e7⟩

end Cert.KerSide

end
-- ==== Proof.lean ====
/-
  The certificate of one dense graph-attention layer over 4096 nodes: a kernel that streams the adjacency in four row
  blocks, keeping the projected features and the two attention scores in tables it fills at the first block, against
  the plain formula.

  Over the extended reals both programs compute, entry by entry, the same value: the softmax of a row of rectified,
  adjacency-shifted logits applied to the projected features, plus a bias, through two exponential-linear units. The
  kernel omits the shift by the row maximum, obtains the row sum of exponentials as a product with a column of ones
  and divides once per row after the product; with every argument entry a real number these are the reference's
  value, by exp (z − M) = exp z · exp (−M) and the cancellation of the positive factor exp (−M) in the quotient.

  The three frames are the programs' runs with the results forgotten; the idealization rewrote nothing.
-/
import proofs.«128342_g53772990545978_cont_sun_c4_684_8_alg».proof.Proof.RefSide
import proofs.«128342_g53772990545978_cont_sun_c4_684_8_alg».proof.Defs
import proofs.«128342_g53772990545978_cont_sun_c4_684_8_alg».proof.Proof.Gen.Kernel
import proofs.«128342_g53772990545978_cont_sun_c4_684_8_alg».proof.Proof.Gen.Kernel.Frame
import proofs.«128342_g53772990545978_cont_sun_c4_684_8_alg».proof.Proof.Gen.KernelIdeal
import proofs.«128342_g53772990545978_cont_sun_c4_684_8_alg».proof.Proof.Gen.KernelIdeal.Frame
import proofs.«128342_g53772990545978_cont_sun_c4_684_8_alg».proof.Proof.Gen.ReferenceIdeal
import proofs.«128342_g53772990545978_cont_sun_c4_684_8_alg».proof.Proof.Gen.Pre_finite_inputs
import proofs.«128342_g53772990545978_cont_sun_c4_684_8_alg».proof.Proof.KerArr
import proofs.«128342_g53772990545978_cont_sun_c4_684_8_alg».proof.Proof.Bridge
import proofs.«128342_g53772990545978_cont_sun_c4_684_8_alg».proof.Proof.FiniteArgs

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- Over the extended reals, from finite arguments, the kernel's result array is the layer's value in the kernel's
    spelling and the reference's is the same value in the reference's spelling; the two spellings agree entry by
    entry when every argument entry is a real number. -/
theorem algebraic : Cert.algebraic_KernelIdeal_ReferenceIdeal := by
  intro m ρ m' ρ' hpre hagree
  refine ⟨fun c => Cert.GatSpec.kerArr (Cert.KerSide.argsOf m c), Cert.KerSide.run m ρ, ?_⟩
  refine (θ_run Cert.ReferenceIdeal.defs _ _).mono (fun _ h c => ⟨(h c).1.trans ?_, (h c).2⟩) (Cert.RefSide.run m' ρ')
  have ha : Cert.RefSide.argsOf m' c = Cert.KerSide.argsOf m c := by
    obtain ⟨h0, h1, h2, h3, h4, h5, h6, h7⟩ := hagree c
    unfold Cert.RefSide.argsOf Cert.KerSide.argsOf
    rw [h0, h1, h2, h3, h4, h5, h6, h7]
  rw [ha]
  exact (Cert.GatSpec.kerArr_eq_refArr _ (Cert.KerSide.finite_of_pre m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
